-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2x512x512 : Shape := ⟨4, ![64, 2, 512, 512]⟩
abbrev S_ : Shape := ⟨0, ![]⟩
abbrev S64x1x512x512 : Shape := ⟨4, ![64, 1, 512, 512]⟩
abbrev S64x512x512 : Shape := ⟨3, ![64, 512, 512]⟩
abbrev S512 : Shape := ⟨1, ![512]⟩

class Facts : Prop where
  bcast_S_S64x2x512x512 : S_.BroadcastsInDim S64x2x512x512 (![] : Fin 0 → Fin S64x2x512x512.rank)
  reducesTo_S64x2x512x512_S_d0_1_2_3 : S64x2x512x512.ReducesTo [0, 1, 2, 3] S_
  h_S_ : 0 < S_.numel
  slices_S64x2x512x512_S64x1x512x512_0_0_0_0 : S64x2x512x512.Slices ![0, 0, 0, 0] S64x1x512x512
  shapeCasts_S64x1x512x512_S64x512x512 : S64x1x512x512.ShapeCasts S64x512x512
  reducesTo_S64x512x512_S512_d0_2 : S64x512x512.ReducesTo [0, 2] S512
  bcast_S_S512 : S_.BroadcastsInDim S512 (![] : Fin 0 → Fin S512.rank)
  reducesTo_S512_S_d0 : S512.ReducesTo [0] S_

variable [Facts]

def fn {F : FTy → Type} [FloatOps F] (main_arg0 : FVec F S64x2x512x512 .f32) : IVec S_ 1 :=
  let main_v0 : FVec F S64x2x512x512 .f32 := Host.absf main_arg0
  let main_cst : FVec F S_ .f32 := constant S_ .f32 0x7F800000#32
  let main_v1 : FVec F S64x2x512x512 .f32 := broadcastInDim S64x2x512x512 ![] bcast_S_S64x2x512x512 main_cst
  let main_v2 : IVec S64x2x512x512 1 := cmpf .olt main_v0 main_v1
  let main_c : IVec S_ 1 := constantI S_ 1 1#1
  let main_v3 : IVec S_ 1 := (fun x v => Host.reduce IntOp.andi x v reducesTo_S64x2x512x512_S_d0_1_2_3 h_S_) main_v2 main_c
  let main_v4 : FVec F S64x1x512x512 .f32 := (extractStridedSlice S64x1x512x512 ![0, 0, 0, 0] · slices_S64x2x512x512_S64x1x512x512_0_0_0_0) main_arg0
  let main_v5 : FVec F S64x512x512 .f32 := shapeCast S64x512x512 main_v4 shapeCasts_S64x1x512x512_S64x512x512
  let main_v6 : FVec F S64x512x512 .f32 := mulf main_v5 main_v5
  let main_cst_0 : FVec F S_ .f32 := constant S_ .f32 0x00000000#32
  let main_v7 : FVec F S512 .f32 := (fun x v => Host.reduceAdd x v reducesTo_S64x512x512_S512_d0_2 h_S_) main_v6 main_cst_0
  let main_v8 : FVec F S512 .f32 := Host.sqrt main_v7
  let main_cst_1 : FVec F S_ .f32 := constant S_ .f32 0x00000000#32
  let main_v9 : FVec F S512 .f32 := broadcastInDim S512 ![] bcast_S_S512 main_cst_1
  let main_v10 : IVec S512 1 := cmpf .ogt main_v8 main_v9
  let main_c_2 : IVec S_ 1 := constantI S_ 1 1#1
  let main_v11 : IVec S_ 1 := (fun x v => Host.reduce IntOp.andi x v reducesTo_S512_S_d0 h_S_) main_v10 main_c_2
  let main_v12 : IVec S_ 1 := andi main_v3 main_v11
  main_v12
-- ==== Kernel.lean ====
abbrev S64x2x512x512 : Shape := ⟨4, ![64, 2, 512, 512]⟩
abbrev S1x512 : Shape := ⟨2, ![1, 512]⟩
abbrev S8x1x256x512 : Shape := ⟨4, ![8, 1, 256, 512]⟩
abbrev S1x256 : Shape := ⟨2, ![1, 256]⟩
abbrev S8x256x512 : Shape := ⟨3, ![8, 256, 512]⟩
abbrev S8x256 : Shape := ⟨2, ![8, 256]⟩
abbrev S256 : Shape := ⟨1, ![256]⟩
abbrev S512x1 : Shape := ⟨2, ![512, 1]⟩
abbrev S64x512x512 : Shape := ⟨3, ![64, 512, 512]⟩
abbrev S4x1x512x512 : Shape := ⟨4, ![4, 1, 512, 512]⟩
abbrev S4x512x512 : Shape := ⟨3, ![4, 512, 512]⟩
abbrev S512x512 : Shape := ⟨2, ![512, 512]⟩
abbrev S1x512x512 : Shape := ⟨3, ![1, 512, 512]⟩

abbrev nBuf : Space → Nat
  | .hbm => 4
  | .vmem => 10
  | .smem => 0
  | _ => 0

abbrev bufTy : (tb : Table) → Fin (tcTables nBuf tb) → BufTy
  | .hbm, ⟨0, _⟩ => ⟨S64x2x512x512, .f32⟩
  | .hbm, ⟨1, _⟩ => ⟨S1x512, .f32⟩
  | .hbm, ⟨2, _⟩ => ⟨S512x1, .f32⟩
  | .hbm, ⟨3, _⟩ => ⟨S64x512x512, .f32⟩
  | .local _ .vmem, ⟨0, _⟩ => ⟨S8x1x256x512, .f32⟩
  | .local _ .vmem, ⟨1, _⟩ => ⟨S8x1x256x512, .f32⟩
  | .local _ .vmem, ⟨2, _⟩ => ⟨S1x256, .f32⟩
  | .local _ .vmem, ⟨3, _⟩ => ⟨S1x256, .f32⟩
  | .local _ .vmem, ⟨4, _⟩ => ⟨S4x1x512x512, .f32⟩
  | .local _ .vmem, ⟨5, _⟩ => ⟨S4x1x512x512, .f32⟩
  | .local _ .vmem, ⟨6, _⟩ => ⟨S512x1, .f32⟩
  | .local _ .vmem, ⟨7, _⟩ => ⟨S1x512, .f32⟩
  | .local _ .vmem, ⟨8, _⟩ => ⟨S4x512x512, .f32⟩
  | .local _ .vmem, ⟨9, _⟩ => ⟨S4x512x512, .f32⟩
  | _, _ => ⟨S64x2x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem2_0 : DmaSem sig := 7
abbrev cc1_sem3_0 : DmaSem sig := 8
abbrev cc1_sem3_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, arg0.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S8x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := ⟨1, ![16], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S4x1x512x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4x512x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x256_S1x256_0_0 : ∀ a, (![0, 0] : Fin 2 → Nat) a + S1x256.size a ≤ S1x256.size a
  h_S1x256 : 0 < S1x256.numel
  inb_S8x1x256x512_S8x1x256x512_0_0_0_0 : ∀ a, (![0, 0, 0, 0] : Fin 4 → Nat) a + S8x1x256x512.size a ≤ S8x1x256x512.size a
  h_S8x1x256x512 : 0 < S8x1x256x512.numel
  shapeCasts_S8x1x256x512_S8x256x512 : S8x1x256x512.ShapeCasts S8x256x512
  reduces_S8x256x512_S8x256 : S8x256x512.Reduces [2] S8x256
  reduces_S8x256_S256 : S8x256.Reduces [0] S256
  shapeCasts_S256_S1x256 : S256.ShapeCasts S1x256
  shapeCasts_S1x256_S1x256 : S1x256.ShapeCasts S1x256
  transposes_S1x512_S512x1_1_0 : S1x512.Transposes [1, 0] S512x1
  inb_S4x1x512x512_S4x1x512x512_0_0_0_0 : ∀ a, (![0, 0, 0, 0] : Fin 4 → Nat) a + S4x1x512x512.size a ≤ S4x1x512x512.size a
  h_S4x1x512x512 : 0 < S4x1x512x512.numel
  shapeCasts_S4x1x512x512_S4x512x512 : S4x1x512x512.ShapeCasts S4x512x512
  bitsLt_bf16_f32 : FTy.bits .bf16 < FTy.bits .f32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S512x1_S512x512 : S512x1.Broadcasts S512x512
  broadcasts_S1x512_S512x512 : S1x512.Broadcasts S512x512
  shapeCasts_S512x512_S1x512x512 : S512x512.ShapeCasts S1x512x512
  broadcasts_S1x512x512_S4x512x512 : S1x512x512.Broadcasts S4x512x512
  inb_S4x512x512_S4x512x512_0_0_0 : ∀ a, (![0, 0, 0] : Fin 3 → Nat) a + S4x512x512.size a ≤ S4x512x512.size a
  h_S4x512x512 : 0 < S4x512x512.numel
  dot_S4x512x512_S4x512x512_S4x512x512_2_2_1_1_0_0_wf : DotDims.WF S4x512x512 S4x512x512 S4x512x512 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x256x512.size a ≤ S64x2x512x512.size a
  hwx0_0 : ∀ i : grid0.Coords, EltTy.bits .f32 = 32 ∨ (Rect.block (s := S64x2x512x512) S8x1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x512.size a
  hwx0_1 : ∀ i : grid0.Coords, EltTy.bits .f32 = 32 ∨ (Rect.block (s := S1x512) S1x256.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x1x512x512.size a ≤ S64x2x512x512.size a
  hwx1_0 : ∀ i : grid1.Coords, EltTy.bits .f32 = 32 ∨ (Rect.block (s := S64x2x512x512) S4x1x512x512.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S512x1.size a
  hwx1_1 : ∀ i : grid1.Coords, EltTy.bits .f32 = 32 ∨ (Rect.block (s := S512x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4x512x512.size a ≤ S64x512x512.size a
  hwx1_3 : ∀ i : grid1.Coords, EltTy.bits .f32 = 32 ∨ (Rect.block (s := S64x512x512) S4x512x512.size (cc1_transform_3 i) (hinb1_3 i)).WholeWords (EltTy.packing .f32)

variable [Facts₀]

def dot_S4x512x512_S4x512x512_S4x512x512_2_2_1_1_0_0 : DotDims S4x512x512 S4x512x512 S4x512x512 where
  lhsContracting := [2]
  rhsContracting := [2]
  lhsNonContracting := [1]
  rhsNonContracting := [1]
  lhsBatch := [0]
  rhsBatch := [0]
  wf := dot_S4x512x512_S4x512x512_S4x512x512_2_2_1_1_0_0_wf

abbrev win0_0 : Pipeline.Window sig grid0 :=
  Pipeline.Window.ofSpec (Memref.whole main_arg0) S8x1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg0) S4x1x512x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v0) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S4x512x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S64x2x512x512 : Shape := ⟨4, ![64, 2, 512, 512]⟩
abbrev S64x1x512x512 : Shape := ⟨4, ![64, 1, 512, 512]⟩
abbrev S64x512x512 : Shape := ⟨3, ![64, 512, 512]⟩
abbrev S_ : Shape := ⟨0, ![]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S1x512x512 : Shape := ⟨3, ![1, 512, 512]⟩

abbrev nBuf : Space → Nat
  | .hbm => 17
  | .vmem => 0
  | .smem => 0
  | _ => 0

abbrev bufTy : (tb : Table) → Fin (tcTables nBuf tb) → BufTy
  | .hbm, ⟨0, _⟩ => ⟨S64x2x512x512, .f32⟩
  | .hbm, ⟨1, _⟩ => ⟨S64x1x512x512, .f32⟩
  | .hbm, ⟨2, _⟩ => ⟨S64x1x512x512, .f32⟩
  | .hbm, ⟨3, _⟩ => ⟨S64x512x512, .f32⟩
  | .hbm, ⟨4, _⟩ => ⟨S64x512x512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S64x512x512, .f32⟩
  | .hbm, ⟨9, _⟩ => ⟨S512x1, .f32⟩
  | .hbm, ⟨10, _⟩ => ⟨S1x512, .f32⟩
  | .hbm, ⟨11, _⟩ => ⟨S512x512, .f32⟩
  | .hbm, ⟨12, _⟩ => ⟨S512x512, .f32⟩
  | .hbm, ⟨13, _⟩ => ⟨S512x512, .f32⟩
  | .hbm, ⟨14, _⟩ => ⟨S1x512x512, .f32⟩
  | .hbm, ⟨15, _⟩ => ⟨S64x512x512, .f32⟩
  | .hbm, ⟨16, _⟩ => ⟨S64x512x512, .f32⟩
  | _, _ => ⟨S64x2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]

class Facts₀ : Prop where
  slices_S64x2x512x512_S64x1x512x512_0_0_0_0 : S64x2x512x512.Slices ![0, 0, 0, 0] S64x1x512x512
  slices_S64x2x512x512_S64x1x512x512_0_1_0_0 : S64x2x512x512.Slices ![0, 1, 0, 0] S64x1x512x512
  shapeCasts_S64x1x512x512_S64x512x512 : S64x1x512x512.ShapeCasts S64x512x512
  reducesTo_S64x512x512_S512_d0_2 : S64x512x512.ReducesTo [0, 2] S512
  h_S_ : 0 < S_.numel
  bcast_S512_S512x1_0 : S512.BroadcastsInDim S512x1 (![0] : Fin 1 → Fin S512x1.rank)
  bcast_S512_S1x512_1 : S512.BroadcastsInDim S1x512 (![1] : Fin 1 → Fin S1x512.rank)
  bcast_S512x1_S512x512_0_1 : S512x1.BroadcastsInDim S512x512 (![0, 1] : Fin 2 → Fin S512x512.rank)
  bcast_S1x512_S512x512_0_1 : S1x512.BroadcastsInDim S512x512 (![0, 1] : Fin 2 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  dot_S64x512x512_S64x512x512_S64x512x512_2_2_1_1_0_0_wf : DotDims.WF S64x512x512 S64x512x512 S64x512x512 [2] [2] [1] [1] [0] [0]

variable [Facts₀]

def dot_S64x512x512_S64x512x512_S64x512x512_2_2_1_1_0_0 : DotDims S64x512x512 S64x512x512 S64x512x512 where
  lhsContracting := [2]
  rhsContracting := [2]
  lhsNonContracting := [1]
  rhsNonContracting := [1]
  lhsBatch := [0]
  rhsBatch := [0]
  wf := dot_S64x512x512_S64x512x512_S64x512x512_2_2_1_1_0_0_wf

class Facts : Prop extends Facts₀ where

variable [Facts]
-- ==== Proof.Spec.lean ====
/-
  The mathematics of the certificate, with no program in sight.

  Write X b v f for the entry x[b, 0, v, f] of the input's first time-plane (64 batches, 512 vertices, 512 features).
  The squared norm of vertex v is  s v = ∑ b, ∑ f, X b v f ².  The Gram entry is  g b i j = ∑ f, X b i f · X b j f.
  One program returns  g b i j · (rsqrt (s i) · rsqrt (s j)),  the other  g b i j / (√(s i) · √(s j)).
  On the extended reals these agree as soon as both square roots are positive: then rsqrt a is the inverse of √a
  (also at a = +∞, where both are 0), the inverse of a product is the product of the inverses, and a quotient by a
  nonzero divisor is the product with the inverse.  Nothing here needs the entries to be finite.
  At a vertex whose norm is zero the two differ (0 · (+∞ · _) = 0 against 0 / 0), which is why the norms are
  assumed positive.
-/
import Idealize.ShloMosaic.PureOps.Ideal
import Idealize.ShloMosaic.Lib.ValueIdx

noncomputable section

namespace Cert.Spec

open Idealize.ShloMosaic Idealize.ShloMosaic.ValueIdx

/-- The input's shape, [64, 2, 512, 512], and the result's, [64, 512, 512]. -/
abbrev SX : Shape := ⟨4, ![64, 2, 512, 512]⟩
abbrev SO : Shape := ⟨3, ![64, 512, 512]⟩

/-- The first time-plane: X b v f = x[b, 0, v, f]. -/
def plane (x : SX.Idx → EReal) (b : Fin 64) (v : Fin 512) (f : Fin 512) : EReal := x (ix4 b (0 : Fin 2) v f)

/-- One batch's share of a vertex's squared norm: ∑ f, X b v f ². -/
def rowsq (x : SX.Idx → EReal) (b : Fin 64) (v : Fin 512) : EReal := ∑ f : Fin 512, plane x b v f * plane x b v f

/-- The squared norm of vertex v over every batch and feature. -/
def sqnorm (x : SX.Idx → EReal) (v : Fin 512) : EReal := ∑ b : Fin 64, rowsq x b v

/-- The Gram entry of batch b between vertices i and j. -/
def gram (x : SX.Idx → EReal) (b : Fin 64) (i j : Fin 512) : EReal := ∑ f : Fin 512, plane x b i f * plane x b j f

/-- The result computed with reciprocal square roots: g · (rsqrt (s i) · rsqrt (s j)). -/
def outRsqrt (x : SX.Idx → EReal) : SO.Idx → EReal := fun o =>
  gram x (o 0) (o 1) (o 2) * (Ideal.rsqrt (sqnorm x (o 1)) * Ideal.rsqrt (sqnorm x (o 2)))

/-- The result computed with a quotient: g / (√(s i) · √(s j)). -/
def outDiv (x : SX.Idx → EReal) : SO.Idx → EReal := fun o =>
  Ideal.div (gram x (o 0) (o 1) (o 2)) (Ideal.sqrt (sqnorm x (o 1)) * Ideal.sqrt (sqnorm x (o 2)))

/-- Where √a is positive, rsqrt a is its inverse: for a positive real both are 1/√a, at +∞ both are 0; at 0, at a
    negative number and at -∞ the square root is not positive. -/
theorem rsqrt_eq_inv_sqrt (a : EReal) (ha : 0 < Ideal.sqrt a) : Ideal.rsqrt a = (Ideal.sqrt a)⁻¹ := by
  induction a using EReal.rec with
  | bot => rw [Ideal.sqrt_bot] at ha; exact absurd ha (not_lt.mpr bot_le)
  | top => rw [Ideal.rsqrt_top, Ideal.sqrt_top, EReal.inv_top]
  | coe r =>
    rw [Ideal.sqrt_coe] at ha
    by_cases hr : r < 0
    · rw [if_pos hr] at ha; exact absurd ha (not_lt.mpr bot_le)
    · rw [if_neg hr] at ha
      have hs : 0 < Real.sqrt r := EReal.coe_pos.mp ha
      have h0 : r ≠ 0 := fun h => by rw [h, Real.sqrt_zero] at hs; exact lt_irrefl _ hs
      rw [Ideal.rsqrt_coe, Ideal.sqrt_coe, if_neg hr, if_neg hr, if_neg h0]
      exact EReal.coe_inv _

/-- The law that joins the two programs: for positive square roots and ANY extended real g,
    g · (rsqrt a · rsqrt b) = g / (√a · √b). -/
theorem mul_rsqrt_eq_div (g a b : EReal) (ha : 0 < Ideal.sqrt a) (hb : 0 < Ideal.sqrt b) :
    g * (Ideal.rsqrt a * Ideal.rsqrt b) = Ideal.div g (Ideal.sqrt a * Ideal.sqrt b) := by
  have hne : Ideal.sqrt a * Ideal.sqrt b ≠ 0 := (EReal.mul_pos ha hb).ne'
  rw [rsqrt_eq_inv_sqrt a ha, rsqrt_eq_inv_sqrt b hb, ← EReal.mul_inv]
  unfold Ideal.div
  rw [if_neg hne]

/-- So the two results are one array wherever every vertex norm is positive. -/
theorem outRsqrt_eq_outDiv (x : SX.Idx → EReal) (hpos : ∀ v : Fin 512, 0 < Ideal.sqrt (sqnorm x v)) :
    outRsqrt x = outDiv x :=
  funext fun o => mul_rsqrt_eq_div _ _ _ (hpos (o 1)) (hpos (o 2))

end Cert.Spec

end
-- ==== Proof.LibReduce02.lean ====
/-
  A host float sum over the two outer axes of a rank-3 array, read at the exact (extended-real) values.

  The sum over axes 0 and 2 of x : [n0, n1, n2] is the rank-1 array whose entry j is the initial value plus
  ∑ a, ∑ c, x[a, j, c].  The reduction is defined as a sum over the set of source indices whose kept coordinate is j;
  that set is {(a, j, c)}, which the lemma re-indexes by (a, c).
-/
import Idealize.ShloMosaic.PureOps.Ideal.Laws
import Idealize.ShloMosaic.Lib.ValueIdx

noncomputable section

namespace Cert.LibReduce02

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- Dropping axes 0 and 2 of a rank-3 index keeps its middle coordinate: the dropped index is `j` exactly when the
    middle coordinate is `j`. -/
theorem drop_axes02_eq_iff {n0 n1 n2 : Nat} (h' : (⟨3, ![n0, n1, n2]⟩ : Shape).ReducesTo [0, 2] ⟨1, ![n1]⟩)
    (i : (⟨3, ![n0, n1, n2]⟩ : Shape).Idx) (j : Fin n1) : h'.drop i = ix1 j ↔ i 1 = j := by
  have hv : ((h'.drop i 0 : Fin n1) : Nat) = (i 1 : Fin n1) := rfl
  constructor
  · intro h
    have h0 : h'.drop i 0 = j := congrFun h 0
    exact Fin.ext (by rw [← hv, h0])
  · intro h
    funext b
    match b with
    | ⟨0, _⟩ => exact Fin.ext (by rw [← h]; exact hv)

/-- The host's float sum over axes 0 and 2 of a rank-3 array, at the exact values: entry `j` of the result is the
    initial value plus the double sum, over the two reduced coordinates, of the array's entries at middle coordinate `j`. -/
theorem hostReduceAdd_axes02 {n0 n1 n2 : Nat} (h' : (⟨3, ![n0, n1, n2]⟩ : Shape).ReducesTo [0, 2] ⟨1, ![n1]⟩)
    (x : (⟨3, ![n0, n1, n2]⟩ : Shape).Idx → EReal) (init : EReal) (j : Fin n1) :
    Ideal.hostReduceAdd h' x init (ix1 j) = init + ∑ a : Fin n0, ∑ c : Fin n2, x (ix3 a j c) := by
  unfold Ideal.hostReduceAdd
  congr 1
  rw [Finset.sum_filter, sum_idx3]
  refine Finset.sum_congr rfl fun a _ => ?_
  rw [Finset.sum_comm]
  refine Finset.sum_congr rfl fun c _ => ?_
  have hb : ∀ b : Fin n1, (if h'.drop (ix3 a b c) = ix1 j then x (ix3 a b c) else 0)
      = if b = j then x (ix3 a b c) else 0 :=
    fun b => if_congr (drop_axes02_eq_iff h' (ix3 a b c) j) rfl rfl
  rw [Finset.sum_congr rfl fun b _ => hb b, Finset.sum_ite_eq' Finset.univ j (fun b => x (ix3 a b c)),
    if_pos (Finset.mem_univ j)]

end Cert.LibReduce02

end
-- ==== Proof.RefValue.lean ====
/-
  The reference program's stages read as the mathematics of Spec.lean.

  The first time-plane X b v f = x[b, 0, v, f] is taken by a slice [0:64, 0:1, :, :] and a reshape to [64, 512, 512].
  The squared norm of vertex v is the float sum over axes 0 and 2 of X * X, which at exact values is
  ∑ b, ∑ f, X b v f ².  These two readings are stated once, for arbitrary proofs of the shape relations the
  operations take, so that every program that spells the same chain can use them.
  The reference's result at (b, i, j) is then (∑ f, X b i f · X b j f) / (√(s i) · √(s j)).
-/
import proofs.«144684_j57664230916911_2_alg».proof.Proof.Gen.ReferenceIdeal.Read
import proofs.«144684_j57664230916911_2_alg».proof.Proof.Spec
import proofs.«144684_j57664230916911_2_alg».proof.Proof.LibReduce02
import Idealize.ShloMosaic.Lib.IdealHost

noncomputable section

namespace Cert.RefValue

open Idealize.ShloMosaic Idealize.ShloMosaic.ValueIdx Cert.Spec

/-- The sliced plane's shape [64, 1, 512, 512], the norms' shape [512], and the scalar shape. -/
abbrev S1 : Shape := ⟨4, ![64, 1, 512, 512]⟩
abbrev SV : Shape := ⟨1, ![512]⟩
abbrev S0 : Shape := ⟨0, ![]⟩

/-- The slice [0:64, 0:1, :, :] reshaped to [64, 512, 512], at (b, v, f), is x[b, 0, v, f]. -/
theorem plane_read (hs : SX.Slices ![0, 0, 0, 0] S1) (hc : S1.ShapeCasts SO) (x : SX.Idx → EReal)
    (b : Fin 64) (v f : Fin 512) :
    shapeCast SO (extractStridedSlice S1 ![0, 0, 0, 0] x hs) hc (ix3 b v f) = plane x b v f := by
  rw [shapeCast_apply _ hc (ix3 b v f) (ix4 b (0 : Fin 1) v f) (by
    rewrite [Shape.rowMajor_val_four, Shape.rowMajor_val_three]
    show ((b.val * 1 + 0) * 512 + v.val) * 512 + f.val = (b.val * 512 + v.val) * 512 + f.val
    omega)]
  exact extractStridedSlice_apply ![0, 0, 0, 0] x hs (ix4 b (0 : Fin 1) v f) (ix4 b (0 : Fin 2) v f) (fun a => match a with
    | ⟨0, _⟩ => by show b.val = 0 + b.val; omega
    | ⟨1, _⟩ => by show (0 : Nat) = 0 + 0; omega
    | ⟨2, _⟩ => by show v.val = 0 + v.val; omega
    | ⟨3, _⟩ => by show f.val = 0 + f.val; omega)

/-- The float sum over axes 0 and 2 of the plane times itself, from the constant zero, at vertex v, is the squared
    norm ∑ b, ∑ f, X b v f ². -/
theorem sqnorm_chain (hs : SX.Slices ![0, 0, 0, 0] S1) (hc : S1.ShapeCasts SO) (hr : SO.ReducesTo [0, 2] SV)
    (hu : 0 < S0.numel) (x : SX.Idx → EReal) (v : Fin 512) :
    Host.reduceAdd (F := Ideal) (φ := .f32)
        (mulf (F := Ideal) (φ := .f32) (shapeCast SO (extractStridedSlice S1 ![0, 0, 0, 0] x hs) hc)
          (shapeCast SO (extractStridedSlice S1 ![0, 0, 0, 0] x hs) hc))
        (constant (F := Ideal) S0 .f32 0x00000000#32) hr hu (ix1 v) = sqnorm x v := by
  rw [hostReduceAdd_apply, Cert.LibReduce02.hostReduceAdd_axes02, constant_apply, Ideal.ofBits_zero_f32, zero_add]
  unfold sqnorm rowsq
  refine Finset.sum_congr rfl fun b _ => Finset.sum_congr rfl fun f _ => ?_
  rw [mulf_apply, plane_read]

/-! ## The reference's stages -/

open Cert.ReferenceIdeal in
/-- The reference's reshaped plane (its stage %2) at (b, v, f) is X b v f. -/
theorem plane_v2 (x0 : (⟨Cert.ReferenceIdeal.S64x2x512x512, .f32⟩ : BufTy).Contents (Elt Ideal)) (b : Fin 64) (v f : Fin 512) :
    Cert.ReferenceIdeal.Read.val_main_v2 (F := Ideal) x0 (ix3 b v f) = plane x0 b v f :=
  plane_read _ _ x0 b v f

/-- The reference's two-axis sum (its stage %4) at vertex v is the squared norm s v. -/
theorem sqnorm_read (x0 : (⟨Cert.ReferenceIdeal.S64x2x512x512, .f32⟩ : BufTy).Contents (Elt Ideal)) (v : Fin 512) :
    Cert.ReferenceIdeal.Read.val_main_v4 (F := Ideal) x0 (ix1 v) = sqnorm x0 v :=
  sqnorm_chain _ _ _ _ x0 v

/-- The reference's result is g / (√(s i) · √(s j)): its Gram product is the sum over features of the plane's
    products, and its divisor is the product of the two broadcast norms. -/
theorem ref_eq (x0 : (⟨Cert.ReferenceIdeal.S64x2x512x512, .f32⟩ : BufTy).Contents (Elt Ideal)) :
    Cert.ReferenceIdeal.Read.val_main_v14 (F := Ideal) x0 = outDiv x0 := by
  funext i
  obtain ⟨b, p, q, rfl⟩ : ∃ b p q, i = ix3 b p q := ⟨i 0, i 1, i 2, eq_ix3 i⟩
  have e13 : Cert.ReferenceIdeal.Read.idx_main_v13 (ix3 b p q) = ix3 (0 : Fin 1) p q :=
    funext fun a => Fin.ext (by match a with | ⟨0, _⟩ => rfl | ⟨1, _⟩ => rfl | ⟨2, _⟩ => rfl)
  have e12 : Cert.ReferenceIdeal.Read.idx_main_v12 (ix3 (0 : Fin 1) p q) = ix2 p q :=
    funext fun a => Fin.ext (by match a with | ⟨0, _⟩ => rfl | ⟨1, _⟩ => rfl)
  have e9 : Cert.ReferenceIdeal.Read.idx_main_v9 (ix2 p q) = ix2 p (0 : Fin 1) :=
    funext fun a => Fin.ext (by match a with | ⟨0, _⟩ => rfl | ⟨1, _⟩ => rfl)
  have e10 : Cert.ReferenceIdeal.Read.idx_main_v10 (ix2 p q) = ix2 (0 : Fin 1) q :=
    funext fun a => Fin.ext (by match a with | ⟨0, _⟩ => rfl | ⟨1, _⟩ => rfl)
  have e7 : Cert.ReferenceIdeal.Read.idx_main_v7 (ix2 p (0 : Fin 1)) = ix1 p :=
    funext fun a => Fin.ext (by match a with | ⟨0, _⟩ => rfl)
  have e8 : Cert.ReferenceIdeal.Read.idx_main_v8 (ix2 (0 : Fin 1) q) = ix1 q :=
    funext fun a => Fin.ext (by match a with | ⟨0, _⟩ => rfl)
  have el : ∀ k : Fin 512, Cert.ReferenceIdeal.Read.lidx_main_v6 (ix3 b p q) k = ix3 b p k := fun k =>
    funext fun a => Fin.ext (by match a with | ⟨0, _⟩ => rfl | ⟨1, _⟩ => rfl | ⟨2, _⟩ => rfl)
  have er : ∀ k : Fin 512, Cert.ReferenceIdeal.Read.ridx_main_v6 (ix3 b p q) k = ix3 b q k := fun k =>
    funext fun a => Fin.ext (by match a with | ⟨0, _⟩ => rfl | ⟨1, _⟩ => rfl | ⟨2, _⟩ => rfl)
  rw [Cert.ReferenceIdeal.Read.val_main_v14_apply, Cert.ReferenceIdeal.Read.val_main_v6_apply,
    Cert.ReferenceIdeal.Read.val_main_v13_apply, e13, Cert.ReferenceIdeal.Read.val_main_v12_apply, e12,
    Cert.ReferenceIdeal.Read.val_main_v11_apply, Cert.ReferenceIdeal.Read.val_main_v9_apply, e9,
    Cert.ReferenceIdeal.Read.val_main_v7_apply, e7, Cert.ReferenceIdeal.Read.val_main_v10_apply, e10,
    Cert.ReferenceIdeal.Read.val_main_v8_apply, e8, Cert.ReferenceIdeal.Read.val_main_v5_apply,
    Cert.ReferenceIdeal.Read.val_main_v5_apply, sqnorm_read, sqnorm_read]
  simp only [el, er, plane_v2, Ideal.hostDivf_def, Ideal.hostUnary_sqrt_def, Ideal.mulf_def]
  rfl

end Cert.RefValue

end
-- ==== Proof.PreNorm.lean ====
/-
  What the precondition gives: every vertex norm is positive.

  The precondition's second conjunct computes n v = √(s v) with the reference's own operations (the slice of the first
  time-plane, the reshape, the product with itself, the float sum over axes 0 and 2, the square root), compares
  n v > 0 at every vertex and takes the conjunction over all vertices.  Read at the exact values, the sum is the
  squared norm s v of Spec.lean, so the conjunct says 0 < √(s v) for every v.
-/
import proofs.«144684_j57664230916911_2_alg».proof.Proof.Gen.Pre_finite_inputs
import proofs.«144684_j57664230916911_2_alg».proof.Proof.RefValue
import Idealize.ShloMosaic.Lib.ReduceAll

noncomputable section

namespace Cert.PreNorm

open Idealize.ShloMosaic Idealize.ShloMosaic.ValueIdx Cert.Spec

/-- The scalar shape has one index. -/
instance : Subsingleton (⟨0, ![]⟩ : Shape).Idx := ⟨fun _ _ => funext fun d => d.elim0⟩

/-- At the exact values the comparison "greater than" answers 1 only where the order holds. -/
theorem lt_of_cmp_ogt_eq_one {x y : EReal} (h : Ideal.cmp .ogt x y = 1#1) : y < x := by
  unfold Ideal.cmp at h
  by_contra hn
  simp [hn] at h

/-- Under the precondition every vertex has a positive norm: 0 < √(s v). -/
theorem norm_pos [Cert.Pre_finite_inputs.Facts] (x0 : FVec Ideal Cert.Pre_finite_inputs.S64x2x512x512 .f32)
    (h : Cert.Pre_finite_inputs.fn (F := Ideal) x0 = fun _ => 1#1) :
    ∀ v : Fin 512, 0 < Ideal.sqrt (sqnorm x0 v) := by
  intro v
  have h0 := congrFun h ix0
  dsimp only [Cert.Pre_finite_inputs.fn] at h0
  have h1 := (IntOp.andi_eq_one.1 h0).2
  have h2 := Host.reduce_andi_all _ _ _ _ _ h1 (ix1 v)
  have h3 : Ideal.cmp .ogt (Ideal.sqrt (sqnorm x0 v)) (Ideal.ofBits .f32 0x00000000#32) = 1#1 := by
    rw [← Cert.RefValue.sqnorm_chain Cert.Pre_finite_inputs.Facts.slices_S64x2x512x512_S64x1x512x512_0_0_0_0
      Cert.Pre_finite_inputs.Facts.shapeCasts_S64x1x512x512_S64x512x512
      Cert.Pre_finite_inputs.Facts.reducesTo_S64x512x512_S512_d0_2 Cert.Pre_finite_inputs.Facts.h_S_ x0 v]
    exact h2
  have h4 := lt_of_cmp_ogt_eq_one h3
  rwa [Ideal.ofBits_zero_f32] at h4

end Cert.PreNorm

end
-- ==== Proof.NormBody.lean ====
/-
  The norm kernel's body at one grid point, as values.  The point (v, b) holds a [8, 1, 256, 512] block x of the input and
  a [1, 256] output block o that is carried from one batch step b to the next.  Writing
      step x o = o + (sum over the 8 batches of the block of the sum over the 512 features of x²),
  the body leaves  step x 0  at the first batch step (it resets o to zero first),  step x o  at a middle one, and
  rsqrt (step x o)  at the last one (it overwrites the sum with its reciprocal square root).
  step is the generated payload k0_pay2, the zero block k0_pay1, the reciprocal square root k0_pay3.
-/
import proofs.«144684_j57664230916911_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.NormValue

open Cert.KernelIdeal Cert.KernelIdeal.Gen

variable {F : FTy → Type} [FloatOps F]

theorem hz2 : (![0, 0] : Fin 2 → Nat) = fun _ => 0 := funext fun a => by fin_cases a <;> rfl
theorem hz4 : (![0, 0, 0, 0] : Fin 4 → Nat) = fun _ => 0 := funext fun a => by fin_cases a <;> rfl

/-- A middle batch step: the body leaves, over the carried block xo, the block xo plus this step's share. -/
theorem out_B (c : Dev nD) (i : grid0.Coords) (a2 : Memref sig .tc .vmem S8x1x256x512 .f32) (h2 : a2.IsWhole)
    (a3 : Memref sig .tc .vmem S1x256 .f32) (h3 : a3.IsWhole) (hc0 : ¬cond0_0 i) (hc1 : ¬cond0_1 i)
    (x0 : Vec F S8x1x256x512 .f32) (xo : Vec F S1x256 .f32) :
    out0_B_1 c i a2 h2 a3 h3 hc0 hc1 x0 xo = k0_pay2 x0 xo := by
  unfold out0_B_1
  rw [View.read_writes_eq_canon _ _ _ (cover0_B_1 c i a2 h2 a3 h3 hc0 hc1 x0 xo)]
  unfold kernelRun0_B
  dsimp only
  rw [View.canon_unit_zero hz2]
  simp only [View.readAt_eq_ld, h2.read_unread, h3.read_unread, View.ld_unit_zero (S := S8x1x256x512) hz4,
    View.ld_unit_zero (S := S1x256) hz2]

/-- The first batch step: the body stores the zero block, reads it back, and leaves zero plus this step's share. -/
theorem out_A (c : Dev nD) (i : grid0.Coords) (a2 : Memref sig .tc .vmem S8x1x256x512 .f32) (h2 : a2.IsWhole)
    (a3 : Memref sig .tc .vmem S1x256 .f32) (h3 : a3.IsWhole) (hc0 : cond0_0 i) (hc1 : ¬cond0_1 i)
    (x0 : Vec F S8x1x256x512 .f32) :
    out0_A_1 c i a2 h2 a3 h3 hc0 hc1 x0 = k0_pay2 x0 (k0_pay1 (F := F)) := by
  unfold out0_A_1
  rw [View.read_writes_eq_canon _ _ _ (cover0_A_1 c i a2 h2 a3 h3 hc0 hc1 x0)]
  unfold kernelRun0_A
  dsimp only
  sl_unfold_words
  rw [View.canon_cons_unit_zero (S := S1x256) hz2, View.readCov_unit_zero (S := S1x256) _ hz2]
  simp only [View.readAt_eq_ld, h2.read_unread, View.ld_unit_zero (S := S8x1x256x512) hz4]

/-- The last batch step: the body adds this step's share to the carried block, reads the sum back, and leaves its
    reciprocal square root. -/
theorem out_C (c : Dev nD) (i : grid0.Coords) (a2 : Memref sig .tc .vmem S8x1x256x512 .f32) (h2 : a2.IsWhole)
    (a3 : Memref sig .tc .vmem S1x256 .f32) (h3 : a3.IsWhole) (hc0 : ¬cond0_0 i) (hc1 : cond0_1 i)
    (x0 : Vec F S8x1x256x512 .f32) (xo : Vec F S1x256 .f32) :
    out0_C_1 c i a2 h2 a3 h3 hc0 hc1 x0 xo = k0_pay3 (k0_pay2 x0 xo) := by
  unfold out0_C_1
  rw [View.read_writes_eq_canon _ _ _ (cover0_C_1 c i a2 h2 a3 h3 hc0 hc1 x0 xo)]
  unfold kernelRun0_C
  dsimp only
  sl_unfold_words
  rw [View.canon_cons_unit_zero (S := S1x256) hz2, View.readCov_unit_zero (S := S1x256) _ hz2]
  simp only [View.readAt_eq_ld, h2.read_unread, h3.read_unread, View.ld_unit_zero (S := S8x1x256x512) hz4,
    View.ld_unit_zero (S := S1x256) hz2]

end Cert.KernelIdeal.NormValue

end
-- ==== Proof.NormPayload.lean ====
/-
  The norm kernel's arithmetic read at an index, on the extended reals.  For a [8, 1, 256, 512] block x and a [1, 256]
  block o, at lane l:
      step x o (0, l) = o (0, l) + ∑ b < 8, ∑ f < 512, x (b, 0, l, f)²
  (the sum over the features first, then over the block's 8 batches, each into a zero accumulator), the zero block is 0
  everywhere, and the last step's value is the reciprocal square root of what it reads, lane by lane.
-/
import proofs.«144684_j57664230916911_2_alg».proof.Proof.Gen.KernelIdeal.Skeleton
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.NormValue

open Cert.KernelIdeal Cert.KernelIdeal.Gen

/-- The sum over the feature axis of a [8, 256, 512] array, at (b, l): ∑ f, v (b, l, f). -/
theorem sum_features (v : FVec Ideal S8x256x512 .f32) (h : S8x256x512.Reduces [2] S8x256) (hφ : FKind.Formats .f32)
    (hacc : (0x00000000#32 : BitVec 32) = FKind.add.neutral .f32 hφ) (b : Fin 8) (l : Fin 256) :
    multiReduction .add [2] S8x256 v 0x00000000#32 h hφ hacc (ix2 b l) = ∑ f : Fin 512, v (ix3 b l f) :=
  (Ideal.multiReduction_add_single v 0x00000000#32 h hφ hacc (ix2 b l)).trans
    (Finset.sum_congr rfl fun f _ => congrArg v (funext fun a => Fin.ext (by
      match a with
      | ⟨0, _⟩ => rfl
      | ⟨1, _⟩ => rfl
      | ⟨2, _⟩ => rfl)))

/-- The sum over the batch axis of a [8, 256] array, at l: ∑ b, v (b, l). -/
theorem sum_batches (v : FVec Ideal S8x256 .f32) (h : S8x256.Reduces [0] S256) (hφ : FKind.Formats .f32)
    (hacc : (0x00000000#32 : BitVec 32) = FKind.add.neutral .f32 hφ) (l : Fin 256) :
    multiReduction .add [0] S256 v 0x00000000#32 h hφ hacc (ix1 l) = ∑ b : Fin 8, v (ix2 b l) :=
  (Ideal.multiReduction_add_single v 0x00000000#32 h hφ hacc (ix1 l)).trans
    (Finset.sum_congr rfl fun b _ => congrArg v (funext fun a => Fin.ext (by
      match a with
      | ⟨0, _⟩ => rfl
      | ⟨1, _⟩ => rfl)))

/-- The block with its unit time axis dropped, at (b, l, f): the block at (b, 0, l, f). -/
theorem drop_time (x : Vec Ideal S8x1x256x512 .f32) (h : S8x1x256x512.ShapeCasts S8x256x512) (b : Fin 8) (l : Fin 256)
    (f : Fin 512) : shapeCast S8x256x512 x h (ix3 b l f) = x (ix4 b (0 : Fin 1) l f) :=
  shapeCast_apply x h (ix3 b l f) (ix4 b (0 : Fin 1) l f) (by
    rw [Shape.rowMajor_val_four, Shape.rowMajor_val_three]
    show ((b.val * 1 + 0) * 256 + l.val) * 512 + f.val = (b.val * 256 + l.val) * 512 + f.val
    omega)

/-- A [256] row given a leading unit axis, at (0, l): the row at l. -/
theorem add_row_axis (v : FVec Ideal S256 .f32) (h : S256.ShapeCasts S1x256) (l : Fin 256) :
    shapeCast S1x256 v h (ix2 (0 : Fin 1) l) = v (ix1 l) :=
  shapeCast_apply v h (ix2 (0 : Fin 1) l) (ix1 l) (by
    rw [Shape.rowMajor_val_two, Shape.rowMajor_val_one]
    show l.val = 0 * 256 + l.val
    omega)

/-- One batch step at lane l: the carried value plus the block's squares summed over its batches and features. -/
theorem step_apply (x : Vec Ideal S8x1x256x512 .f32) (o : Vec Ideal S1x256 .f32) (l : Fin 256) :
    k0_pay2 (F := Ideal) x o (ix2 (0 : Fin 1) l)
      = o (ix2 (0 : Fin 1) l) + ∑ b : Fin 8, ∑ f : Fin 512, x (ix4 b (0 : Fin 1) l f) * x (ix4 b (0 : Fin 1) l f) := by
  unfold k0_pay2
  dsimp only
  rw [addf_apply, shapeCast_self]
  refine congrArg (o (ix2 (0 : Fin 1) l) + ·) ?_
  refine (add_row_axis _ _ l).trans ?_
  refine (sum_batches _ _ _ _ l).trans ?_
  refine Finset.sum_congr rfl fun b _ => ?_
  refine (sum_features _ _ _ _ b l).trans ?_
  refine Finset.sum_congr rfl fun f _ => ?_
  rw [mulf_apply, drop_time]

/-- The zero block is 0 at every index. -/
theorem zero_apply (i : S1x256.Idx) : k0_pay1 (F := Ideal) i = 0 := by
  unfold k0_pay1
  rw [broadcast_apply]
  exact Ideal.ofBits_zero_f32

/-- The last step's value at an index: the reciprocal square root of what it reads there. -/
theorem last_apply (o : Vec Ideal S1x256 .f32) (i : S1x256.Idx) : k0_pay3 (F := Ideal) o i = Ideal.rsqrt (o i) := by
  unfold k0_pay3
  rw [shapeCast_self]
  rfl

end Cert.KernelIdeal.NormValue

end
-- ==== Proof.NormSum.lean ====
/-
  The squared norm of a vertex as the norm kernel adds it up: eight steps s = 0 … 7, step s adding the batches
  8s, 8s + 1, …, 8s + 7.  On the extended reals addition is commutative and associative with no side condition, so
      ∑ s < 8, ∑ b' < 8, r (8s + b') = ∑ b < 64, r b
  whatever r is.  The step's addend is written over natural numbers, zero outside the array, so that a fold over grid
  points can name it without carrying bounds.
-/
import proofs.«144684_j57664230916911_2_alg».proof.Proof.Spec

noncomputable section

namespace Cert.Spec

open Idealize.ShloMosaic Idealize.ShloMosaic.ValueIdx

/-- One batch's share of a vertex's squared norm at natural-number coordinates: zero outside the array. -/
def rowsqN (x : SX.Idx → EReal) (b v : Nat) : EReal :=
  if h : b < 64 ∧ v < 512 then rowsq x ⟨b, h.1⟩ ⟨v, h.2⟩ else 0

theorem rowsqN_of_lt (x : SX.Idx → EReal) (b v : Nat) (hb : b < 64) (hv : v < 512) :
    rowsqN x b v = rowsq x ⟨b, hb⟩ ⟨v, hv⟩ := dif_pos ⟨hb, hv⟩

/-- Eight blocks of eight batches are the sixty-four batches. -/
theorem sum_blocks (r : Nat → EReal) :
    ∑ s ∈ Finset.range 8, ∑ b' : Fin 8, r (8 * s + b'.val) = ∑ b : Fin 64, r b.val := by
  rw [Finset.sum_range (fun s => ∑ b' : Fin 8, r (8 * s + b'.val)), ← Fintype.sum_prod_type']
  rw [← Equiv.sum_comp (finProdFinEquiv (m := 8) (n := 8)) (fun b : Fin 64 => r b.val)]
  refine Finset.sum_congr rfl fun p _ => ?_
  show r (8 * p.1.val + p.2.val) = r (p.2.val + 8 * p.1.val)
  rw [Nat.add_comm]

/-- So the eight steps' addends at vertex v add up to its squared norm. -/
theorem sum_steps (x : SX.Idx → EReal) (v : Fin 512) :
    ∑ s ∈ Finset.range 8, ∑ b' : Fin 8, rowsqN x (8 * s + b'.val) v.val = sqnorm x v := by
  rw [sum_blocks (fun b => rowsqN x b v.val)]
  unfold sqnorm
  exact Finset.sum_congr rfl fun b _ => rowsqN_of_lt x b.val v.val b.isLt v.isLt

end Cert.Spec

end
-- ==== Proof.NormPoint.lean ====
/-
  One grid point of the norm kernel.  Point t of the 2 × 8 grid is vertex half t / 8 and batch step t % 8: its input block
  holds x[8 (t % 8) + b', 0, 256 (t / 8) + l, f] at (b', 0, l, f).  So one batch step adds, to lane l of the carried block,
      addend t l = ∑ b' < 8, (batch 8 (t % 8) + b' 's share of the squared norm of vertex 256 (t / 8) + l).
-/
import proofs.«144684_j57664230916911_2_alg».proof.Proof.NormPayload
import proofs.«144684_j57664230916911_2_alg».proof.Proof.NormSum
import proofs.«144684_j57664230916911_2_alg».proof.Proof.Gen.KernelIdeal.Frame

noncomputable section

open Idealize.ShloMosaic Idealize.ShloMosaic.TcCoe Idealize.ShloMosaic.ValueIdx Idealize.SL.Sem
open Idealize.ShloMosaic.Pipeline (Dat)

namespace Cert.KernelIdeal.NormValue

open Cert.KernelIdeal Cert.KernelIdeal.Gen

variable (V : (c : Dev nD) → (b : Ref sig .tc) → Buf (Elt Ideal) ((c : Thread nD τ).loc b)) (c : Dev nD)

/-- The input window's block index at point t: (t % 8, 0, t / 8, 0) — decided over the sixteen points. -/
theorem index_in : ∀ t : Fin cfg0.N, win0_0.index t 0 = t.val % 8 ∧ win0_0.index t 1 = 0 ∧ win0_0.index t 2 = t.val / 8
    ∧ win0_0.index t 3 = 0 :=
  (by decide +kernel : ∀ t : Fin grid0.N, win0_0.index t 0 = t.val % 8 ∧ win0_0.index t 1 = 0 ∧ win0_0.index t 2 = t.val / 8
    ∧ win0_0.index t 3 = 0)

/-- The input block at point t, at (b', 0, l, f): the input's first time-plane at batch 8 (t % 8) + b', vertex
    256 (t / 8) + l, feature f. -/
theorem block_read (t : Fin cfg0.N) (b' : Fin 8) (l : Fin 256) (f : Fin 512)
    (hb : 8 * (t.val % 8) + b'.val < 64) (hv : 256 * (t.val / 8) + l.val < 512) :
    (iblk0 V c 0 t : Vec Ideal S8x1x256x512 .f32) (ix4 b' (0 : Fin 1) l f)
      = Cert.Spec.plane (V c main_arg0) ⟨8 * (t.val % 8) + b'.val, hb⟩ ⟨256 * (t.val / 8) + l.val, hv⟩ f := by
  have hi := index_in t
  unfold iblk0 Cert.Spec.plane
  rw [View.read_apply]
  show V c main_arg0 _ = V c main_arg0 _
  congr 1
  funext a
  apply Fin.ext
  match a with
  | ⟨0, _⟩ => show win0_0.index t 0 * 8 + 1 * b'.val = 8 * (t.val % 8) + b'.val; rw [hi.1]; omega
  | ⟨1, _⟩ => show win0_0.index t 1 * 1 + 1 * 0 = 0; rw [hi.2.1]
  | ⟨2, _⟩ => show win0_0.index t 2 * 256 + 1 * l.val = 256 * (t.val / 8) + l.val; rw [hi.2.2.1]; omega
  | ⟨3, _⟩ => show win0_0.index t 3 * 512 + 1 * f.val = f.val; rw [hi.2.2.2]; omega

/-- What the batch step at point n adds at lane i: the eight batches 8 (n % 8) + b' 's shares of the squared norm of
    vertex 256 (n / 8) + i. Stated for every natural n (zero outside the array), so that a fold can name it. -/
def addend (n : Nat) (i : S1x256.Idx) : EReal :=
  ∑ b' : Fin 8, Cert.Spec.rowsqN (V c main_arg0) (8 * (n % 8) + b'.val) (256 * (n / 8) + (i 1).val)

/-- One batch step at point t, at lane i: the carried value plus the point's addend. -/
theorem step_point (t : Fin cfg0.N) (acc : Vec Ideal S1x256 .f32) (i : S1x256.Idx) :
    k0_pay2 (F := Ideal) (iblk0 V c 0 t) acc i = acc i + addend V c t.val i := by
  have hN : t.val < 16 := lt_of_lt_of_eq t.isLt (show cfg0.N = 16 from N_0)
  obtain ⟨p, l, rfl⟩ : ∃ (p : Fin 1) (l : Fin 256), i = ix2 p l := ⟨i 0, i 1, eq_ix2 i⟩
  obtain rfl : p = 0 := Subsingleton.elim p 0
  refine (step_apply (iblk0 V c 0 t) acc l).trans ?_
  refine congrArg (acc (ix2 (0 : Fin 1) l) + ·) ?_
  unfold addend
  refine Finset.sum_congr rfl fun b' _ => ?_
  have hb : 8 * (t.val % 8) + b'.val < 64 := by have := b'.isLt; omega
  have hv : 256 * (t.val / 8) + l.val < 512 := by have := l.isLt; omega
  show _ = Cert.Spec.rowsqN (V c main_arg0) (8 * (t.val % 8) + b'.val) (256 * (t.val / 8) + l.val)
  rw [Cert.Spec.rowsqN_of_lt _ _ _ hb hv]
  unfold Cert.Spec.rowsq
  refine Finset.sum_congr rfl fun f _ => ?_
  rw [block_read V c t b' l f hb hv]

end Cert.KernelIdeal.NormValue

end
-- ==== Proof.NormRegion.lean ====
/-
  The norm kernel over its whole grid.  For each vertex half q the eight points 8q, …, 8q + 7 carry one [1, 256] block:
  reset and first addend at 8q, one more addend at each of 8q + 1, …, 8q + 6, and at 8q + 7 the last addend followed by
  the reciprocal square root.  So at its last point the block holds, at lane l,
      rsqrt (0 + ∑ s < 8, addend (8q + s) l) = rsqrt (squared norm of vertex 256 q + l),
  it is written back there and only there, the two halves' blocks tile the [1, 512] array, and the array ends as
  v ↦ rsqrt (squared norm of v).
-/
import proofs.«144684_j57664230916911_2_alg».proof.Proof.NormBody
import proofs.«144684_j57664230916911_2_alg».proof.Proof.NormPoint

noncomputable section

open Idealize.ShloMosaic Idealize.ShloMosaic.TcCoe Idealize.ShloMosaic.ValueIdx Idealize.SL.Sem
open Idealize.ShloMosaic.Pipeline (Dat)

namespace Cert.KernelIdeal.NormValue

open Cert.KernelIdeal Cert.KernelIdeal.Gen

variable (V : (c : Dev nD) → (b : Ref sig .tc) → Buf (Elt Ideal) ((c : Thread nD τ).loc b)) (c : Dev nD)

/-- What the carried block holds after the first batch step of a run: zero plus the point's share. -/
def reset (n : Nat) (h : n < cfg0.N) : Vec Ideal S1x256 .f32 :=
  k0_pay2 (F := Ideal) (iblk0 V c 0 ⟨n, h⟩) (k0_pay1 (F := Ideal))

/-- What a later batch step makes of the carried block: the point's share added, and at the last step of a run the
    reciprocal square root of that. -/
def stepAt (n : Nat) (h : n < cfg0.N) (acc : Vec Ideal S1x256 .f32) : Vec Ideal S1x256 .f32 :=
  if n % 8 = 7 then k0_pay3 (F := Ideal) (k0_pay2 (F := Ideal) (iblk0 V c 0 ⟨n, h⟩) acc)
  else k0_pay2 (F := Ideal) (iblk0 V c 0 ⟨n, h⟩) acc

theorem stepAt_last (n : Nat) (h : n < cfg0.N) (acc : Vec Ideal S1x256 .f32) (h7 : n % 8 = 7) :
    stepAt V c n h acc = k0_pay3 (F := Ideal) (k0_pay2 (F := Ideal) (iblk0 V c 0 ⟨n, h⟩) acc) := if_pos h7

theorem stepAt_mid (n : Nat) (h : n < cfg0.N) (acc : Vec Ideal S1x256 .f32) (h7 : ¬ n % 8 = 7) :
    stepAt V c n h acc = k0_pay2 (F := Ideal) (iblk0 V c 0 ⟨n, h⟩) acc := if_neg h7

theorem outs_reset (n : Nat) (h : n < cfg0.N) (h0 : n % 8 = 0) : outsAt0 V c n h = reset V c n h := by
  have h1 : ¬ n % 8 = 7 := by omega
  exact (outsAt0_A V c ⟨n, h⟩ h0 h1).trans (out_A ..)

theorem outs_step (n : Nat) (h : n + 1 < cfg0.N) (h0 : ¬(n + 1) % 8 = 0) :
    outsAt0 V c (n + 1) h = stepAt V c (n + 1) h (outsAt0 V c n (Nat.lt_of_succ_lt h)) := by
  by_cases h1 : (n + 1) % 8 = 7
  · rw [stepAt_last V c _ _ _ h1]; exact (outsAt0_C V c ⟨n + 1, h⟩ h0 h1).trans (out_C ..)
  · rw [stepAt_mid V c _ _ _ h1]; exact (outsAt0_B V c ⟨n + 1, h⟩ h0 h1).trans (out_B ..)

/-- After the first seven points of a run starting at b the block holds, at lane i, the seven addends' sum. -/
theorem fold_six (b : Nat) (hb8 : b % 8 = 0) (h : b + 6 < cfg0.N) (i : S1x256.Idx) :
    Pipeline.accAt (reset V c) (stepAt V c) b 6 h i = 0 + ∑ s ∈ Finset.range 7, addend V c (b + s) i :=
  Pipeline.accAt_add_apply (reset V c) (stepAt V c) (fun _ => (0 : EReal)) (addend V c) b 6
    (fun hb i => by
      unfold reset
      exact (step_point V c ⟨b, hb⟩ _ i).trans (by rw [zero_apply]))
    (fun n hn acc i hlt hle => by
      rw [stepAt_mid V c n hn acc (by omega)]
      exact step_point V c ⟨n, hn⟩ acc i)
    6 le_rfl h i

/-- After its eighth point the block holds the reciprocal square root of the eight addends' sum. -/
theorem fold_last (b : Nat) (hb8 : b % 8 = 0) (h : b + 7 < cfg0.N) (i : S1x256.Idx) :
    Pipeline.accAt (reset V c) (stepAt V c) b 7 h i
      = Ideal.rsqrt (0 + ∑ s ∈ Finset.range 8, addend V c (b + s) i) := by
  show Pipeline.accAt (reset V c) (stepAt V c) b (6 + 1) h i = _
  rw [Pipeline.accAt_succ, stepAt_last V c _ _ _ (by omega), last_apply]
  refine congrArg Ideal.rsqrt ?_
  refine (step_point V c ⟨b + (6 + 1), h⟩ _ i).trans ?_
  rw [fold_six V c b hb8 _ i, add_assoc]
  exact congrArg ((0 : EReal) + ·) (Finset.sum_range_succ (fun s => addend V c (b + s) i) 7).symm

/-- The eight addends of the run of vertex half q, at lane l: the squared norm of vertex 256 q + l. -/
theorem sum_addends (q : Nat) (l : Fin 256) (hv : 256 * q + l.val < 512) :
    ∑ s ∈ Finset.range 8, addend V c (8 * q + s) (ix2 (0 : Fin 1) l)
      = Cert.Spec.sqnorm (V c main_arg0) ⟨256 * q + l.val, hv⟩ := by
  rw [← Cert.Spec.sum_steps (V c main_arg0) ⟨256 * q + l.val, hv⟩]
  refine Finset.sum_congr rfl fun s hs => ?_
  have hs8 : s < 8 := Finset.mem_range.mp hs
  have e1 : (8 * q + s) % 8 = s := by omega
  have e2 : (8 * q + s) / 8 = q := by omega
  unfold addend
  rw [e1, e2]

/-- What the carried block holds after a run's last point t (t % 8 = 7), at lane l. -/
theorem outs_last (t : Nat) (ht : t < cfg0.N) (h7 : t % 8 = 7) (l : Fin 256) (hv : 256 * (t / 8) + l.val < 512) :
    outsAt0 V c t ht (ix2 (0 : Fin 1) l)
      = Ideal.rsqrt (Cert.Spec.sqnorm (V c main_arg0) ⟨256 * (t / 8) + l.val, hv⟩) := by
  have hN : t < 16 := lt_of_lt_of_eq ht (show cfg0.N = 16 from N_0)
  have e : 8 * (t / 8) + 7 = t := by omega
  have h' : 8 * (t / 8) + 7 < cfg0.N := by rw [e]; exact ht
  have same : ∀ (u : Nat) (hu : u < cfg0.N), u = t → outsAt0 V c u hu = outsAt0 V c t ht := fun u hu eu => by subst eu; rfl
  rw [← same _ h' e,
    Pipeline.eq_accAt (outsAt0 V c) 8 (reset V c) (stepAt V c) (fun n h h0 => outs_reset V c n h h0)
      (fun n h h0 => outs_step V c n h h0) (t / 8) 7 (by decide) h',
    fold_last V c (8 * (t / 8)) (by omega) h' _, sum_addends V c (t / 8) l hv, zero_add]

/-- The reciprocal norms: v ↦ rsqrt (squared norm of vertex v), as the [1, 512] array's contents. -/
def invNorm : Buf (Elt Ideal) ((c : Thread nD τ).loc main_v0) := fun i =>
  Ideal.rsqrt (Cert.Spec.sqnorm (V c main_arg0) ⟨(i 1).val, (i 1).isLt⟩)

/-- The output window's block index at point t is (0, t / 8) and its blocks are whole — decided over the points. -/
theorem index_out : ∀ t : Fin cfg0.N, win0_1.index t 0 = 0 ∧ win0_1.index t 1 = t.val / 8
    ∧ win0_1.xsize (grid0.coords t) 0 = 1 ∧ win0_1.xsize (grid0.coords t) 1 = 256 :=
  (by decide +kernel : ∀ t : Fin grid0.N, win0_1.index t 0 = 0 ∧ win0_1.index t 1 = t.val / 8
    ∧ win0_1.xsize (grid0.coords t) 0 = 1 ∧ win0_1.xsize (grid0.coords t) 1 = 256)

/-- A write-back (at a run's last point) writes the reciprocal norms of its half's vertices. -/
theorem flushed_eq (t : Fin cfg0.N) (hf : (cfg0.win 1).flush t = true) :
    (dat0 V c).flushed 1 t = ((cfg0.win 1).blk t).view.read (Elt Ideal) (invNorm V c) := by
  have hN : t.val < 16 := lt_of_lt_of_eq t.isLt (show cfg0.N = 16 from N_0)
  have h7 : t.val % 8 = 7 := (flush0_1 t).mp hf
  have hi := index_out t
  show (cfg0.win 1).cut (grid0.coords t) ((dat0 V c).after 1 t) = _
  rw [after0_1]
  funext y
  rw [View.read_apply]
  obtain ⟨p, l, rfl⟩ : ∃ (p : Fin 1) (l : Fin 256), y = ix2 p l := ⟨y 0, y 1, eq_ix2 y⟩
  obtain rfl : p = 0 := Subsingleton.elim p 0
  have hv : 256 * (t.val / 8) + l.val < 512 := by have := l.isLt; omega
  show outsAt0 V c t.val t.isLt (ix2 (0 : Fin 1) l) = invNorm V c _
  rw [outs_last V c t.val t.isLt h7 l hv]
  unfold invNorm
  refine congrArg (fun v => Ideal.rsqrt (Cert.Spec.sqnorm (V c main_arg0) v)) (Fin.ext ?_)
  show 256 * (t.val / 8) + l.val = win0_1.index t 1 * 256 + 1 * l.val
  rw [hi.2.1]; omega

/-- Vertex v lies in the block of half v / 256, written back at point 8 (v / 256) + 7: the blocks cover the array, which
    therefore ends holding the reciprocal norms. -/
theorem norm_final : (dat0 V c).arrAt 1 cfg0.N = invNorm V c :=
  (dat0 V c).arrAt_eq_of_cover 1 (invNorm V c) (flushed_eq V c) fun i => by
    have h0 : (i 0 : Nat) < 1 := (i 0).isLt
    have h1 : (i 1 : Nat) < 512 := (i 1).isLt
    have hN : cfg0.N = 16 := N_0
    have ht : 8 * ((i 1 : Nat) / 256) + 7 < cfg0.N := by rw [hN]; omega
    refine ⟨⟨8 * ((i 1 : Nat) / 256) + 7, ht⟩, (flush0_1 _).mpr (by show (8 * ((i 1 : Nat) / 256) + 7) % 8 = 7; omega), ?_⟩
    have hi := index_out ⟨8 * ((i 1 : Nat) / 256) + 7, ht⟩
    have hs0 : win0_1.size 0 = 1 := rfl
    have hs1 : win0_1.size 1 = 256 := rfl
    have hq : (8 * ((i 1 : Nat) / 256) + 7) / 8 = (i 1 : Nat) / 256 := by omega
    show i ∈ ((View.whole main_v0).slice (win0_1.rect ⟨8 * ((i 1 : Nat) / 256) + 7, ht⟩)).set
    rw [View.set_slice_whole, Rect.mem_set_unit]
    intro a
    match a with
    | ⟨0, _⟩ =>
      show win0_1.index ⟨8 * ((i 1 : Nat) / 256) + 7, ht⟩ 0 * win0_1.size 0 ≤ (i 0 : Nat)
        ∧ (i 0 : Nat) < win0_1.index ⟨8 * ((i 1 : Nat) / 256) + 7, ht⟩ 0 * win0_1.size 0
          + win0_1.xsize (grid0.coords ⟨8 * ((i 1 : Nat) / 256) + 7, ht⟩) 0
      rw [hi.1, hi.2.2.1, hs0]; omega
    | ⟨1, _⟩ =>
      show win0_1.index ⟨8 * ((i 1 : Nat) / 256) + 7, ht⟩ 1 * win0_1.size 1 ≤ (i 1 : Nat)
        ∧ (i 1 : Nat) < win0_1.index ⟨8 * ((i 1 : Nat) / 256) + 7, ht⟩ 1 * win0_1.size 1
          + win0_1.xsize (grid0.coords ⟨8 * ((i 1 : Nat) / 256) + 7, ht⟩) 1
      rw [hi.2.1, hi.2.2.2, hs1]
      show (8 * ((i 1 : Nat) / 256) + 7) / 8 * 256 ≤ (i 1 : Nat) ∧ (i 1 : Nat) < (8 * ((i 1 : Nat) / 256) + 7) / 8 * 256 + 256
      rw [hq]; omega

end Cert.KernelIdeal.NormValue

end
-- ==== Proof.GramBody.lean ====
/-
  The Gram kernel's arithmetic, read at one entry of the block it stores.

  The kernel loads a block x0 of four batches of the first time-plane, of shape [4, 1, 512, 512], a column x1 of shape
  [512, 1] and a row x2 of shape [1, 512].  It drops the unit axis of x0, multiplies the [4, 512, 512] array with itself,
  contracting the feature axis batch by batch into a zero accumulator, and multiplies entry (p, i, j) of the product by
  x1 i · x2 j: the outer product of the column and the row, repeated over the four batches.  On the extended reals a
  change of float format is the identity and the product into a zero accumulator is the plain sum, so entry (p, i, j) of
  what the kernel stores is
      (∑ f, x0 (p, 0, i, f) · x0 (p, 0, j, f)) · (x1 (i, 0) · x2 (0, j)).
-/
import Idealize.ShloMosaic.Lib.ValueIdx
import Idealize.ShloMosaic.Lib.Pipeline.Value
import Idealize.ShloMosaic.Lib.ValueLayout
import Idealize.ShloMosaic.PureOps.Ideal.Laws
import proofs.«144684_j57664230916911_2_alg».proof.Proof.Gen.KernelIdeal.Skeleton

noncomputable section

namespace Cert.KernelIdeal.GramValue

open Idealize.ShloMosaic Idealize.ShloMosaic.ValueIdx Cert.KernelIdeal Cert.KernelIdeal.Gen

/-! ## The layout operations of the body, each at an index given by its coordinates -/

/-- The block of four planes with its unit axis dropped: entry (p, i, f) is entry (p, 0, i, f) of the block. -/
theorem dropPlane_apply {α : Type} (x : S4x1x512x512.Idx → α) (h : S4x1x512x512.ShapeCasts S4x512x512)
    (p : Fin 4) (i f : Fin 512) :
    shapeCast S4x512x512 x h (ix3 p i f) = x (ix4 p (0 : Fin 1) i f) :=
  shapeCast_apply x h _ _ (by
    rw [Shape.rowMajor_val_four, Shape.rowMajor_val_three]
    show ((p.val * 1 + 0) * 512 + i.val) * 512 + f.val = (p.val * 512 + i.val) * 512 + f.val
    omega)

/-- A column repeated along the rows' second axis: entry (i, j) is the column's entry i. -/
theorem colBroadcast_apply {α : Type} (v : S512x1.Idx → α) (h : S512x1.Broadcasts S512x512) (i j : Fin 512) :
    broadcastTo S512x512 v h (ix2 i j) = v (ix2 i (0 : Fin 1)) :=
  broadcastTo_apply v h _ _ fun a => by
    match a with
    | ⟨0, _⟩ => rfl
    | ⟨1, _⟩ => rfl

/-- One matrix repeated over four batches: entry (p, i, j) is the matrix's entry (i, j). -/
theorem batchBroadcast_apply {α : Type} (v : S1x512x512.Idx → α) (h : S1x512x512.Broadcasts S4x512x512)
    (p : Fin 4) (i j : Fin 512) :
    broadcastTo S4x512x512 v h (ix3 p i j) = v (ix3 (0 : Fin 1) i j) :=
  broadcastTo_apply v h _ _ fun a => by
    match a with
    | ⟨0, _⟩ => rfl
    | ⟨1, _⟩ => rfl
    | ⟨2, _⟩ => rfl

/-! ## The batched product: which entries of its operands an entry of the product reads -/

theorem lhs_batch (o : S4x512x512.Idx) (q : dot_S4x512x512_S4x512x512_S4x512x512_2_2_1_1_0_0.contr.Idx) :
    (dot_S4x512x512_S4x512x512_S4x512x512_2_2_1_1_0_0.lhsIdx o q 0).val = (o 0).val := by
  unfold DotDims.lhsIdx
  rw [dif_pos (show (0 : Fin S4x512x512.rank) ∈ dot_S4x512x512_S4x512x512_S4x512x512_2_2_1_1_0_0.lhsBatch by decide)]
  rfl
theorem lhs_row (o : S4x512x512.Idx) (q : dot_S4x512x512_S4x512x512_S4x512x512_2_2_1_1_0_0.contr.Idx) :
    (dot_S4x512x512_S4x512x512_S4x512x512_2_2_1_1_0_0.lhsIdx o q 1).val = (o 1).val := by
  unfold DotDims.lhsIdx
  rw [dif_neg (show ¬(1 : Fin S4x512x512.rank) ∈ dot_S4x512x512_S4x512x512_S4x512x512_2_2_1_1_0_0.lhsBatch by decide),
    dif_pos (show (1 : Fin S4x512x512.rank) ∈ dot_S4x512x512_S4x512x512_S4x512x512_2_2_1_1_0_0.lhsNonContracting by decide)]
  rfl
theorem lhs_feature (o : S4x512x512.Idx) (q : dot_S4x512x512_S4x512x512_S4x512x512_2_2_1_1_0_0.contr.Idx) :
    (dot_S4x512x512_S4x512x512_S4x512x512_2_2_1_1_0_0.lhsIdx o q 2).val = (q ⟨0, by decide⟩).val :=
  dot_S4x512x512_S4x512x512_S4x512x512_2_2_1_1_0_0.lhsIdx_val_of_single rfl o q
theorem rhs_batch (o : S4x512x512.Idx) (q : dot_S4x512x512_S4x512x512_S4x512x512_2_2_1_1_0_0.contr.Idx) :
    (dot_S4x512x512_S4x512x512_S4x512x512_2_2_1_1_0_0.rhsIdx o q 0).val = (o 0).val := by
  unfold DotDims.rhsIdx
  rw [dif_pos (show (0 : Fin S4x512x512.rank) ∈ dot_S4x512x512_S4x512x512_S4x512x512_2_2_1_1_0_0.rhsBatch by decide)]
  rfl
theorem rhs_row (o : S4x512x512.Idx) (q : dot_S4x512x512_S4x512x512_S4x512x512_2_2_1_1_0_0.contr.Idx) :
    (dot_S4x512x512_S4x512x512_S4x512x512_2_2_1_1_0_0.rhsIdx o q 1).val = (o 2).val := by
  unfold DotDims.rhsIdx
  rw [dif_neg (show ¬(1 : Fin S4x512x512.rank) ∈ dot_S4x512x512_S4x512x512_S4x512x512_2_2_1_1_0_0.rhsBatch by decide),
    dif_pos (show (1 : Fin S4x512x512.rank) ∈ dot_S4x512x512_S4x512x512_S4x512x512_2_2_1_1_0_0.rhsNonContracting by decide)]
  rfl
theorem rhs_feature (o : S4x512x512.Idx) (q : dot_S4x512x512_S4x512x512_S4x512x512_2_2_1_1_0_0.contr.Idx) :
    (dot_S4x512x512_S4x512x512_S4x512x512_2_2_1_1_0_0.rhsIdx o q 2).val = (q ⟨0, by decide⟩).val :=
  dot_S4x512x512_S4x512x512_S4x512x512_2_2_1_1_0_0.rhsIdx_val_of_single rfl o q

/-- The product of an array with itself into the zero accumulator: entry (p, i, j) is the sum over the features f of
    entry (p, i, f) times entry (p, j, f). -/
theorem selfProduct_apply (v : FVec Ideal S4x512x512 .bf16) (p : Fin 4) (i j : Fin 512) :
    matmul dot_S4x512x512_S4x512x512_S4x512x512_2_2_1_1_0_0 none v v (constant S4x512x512 .f32 0x00000000#32) (ix3 p i j)
      = ∑ f : Fin 512, v (ix3 p i f) * v (ix3 p j f) := by
  simp only [matmul]
  rw [Ideal.matmul_constant_zero_apply,
    ← Equiv.sum_comp (contrEquiv1 dot_S4x512x512_S4x512x512_S4x512x512_2_2_1_1_0_0 512 rfl rfl).symm]
  refine Finset.sum_congr rfl fun k _ => ?_
  have hk := contrEquiv1_symm_val dot_S4x512x512_S4x512x512_S4x512x512_2_2_1_1_0_0 512 rfl rfl k
  have el : dot_S4x512x512_S4x512x512_S4x512x512_2_2_1_1_0_0.lhsIdx (ix3 p i j) ((contrEquiv1 dot_S4x512x512_S4x512x512_S4x512x512_2_2_1_1_0_0 512 rfl rfl).symm k) = ix3 p i k :=
    funext fun a => Fin.ext (by
      match a with
      | ⟨0, _⟩ => exact lhs_batch _ _
      | ⟨1, _⟩ => exact lhs_row _ _
      | ⟨2, _⟩ => exact (lhs_feature _ _).trans hk)
  have er : dot_S4x512x512_S4x512x512_S4x512x512_2_2_1_1_0_0.rhsIdx (ix3 p i j) ((contrEquiv1 dot_S4x512x512_S4x512x512_S4x512x512_2_2_1_1_0_0 512 rfl rfl).symm k) = ix3 p j k :=
    funext fun a => Fin.ext (by
      match a with
      | ⟨0, _⟩ => exact rhs_batch _ _
      | ⟨1, _⟩ => exact rhs_row _ _
      | ⟨2, _⟩ => exact (rhs_feature _ _).trans hk)
  rw [el, er]

/-! ## The scale: the outer product of the column and the row, over the four batches -/

/-- Entry (p, i, j) of the scale is the column's entry i times the row's entry j. -/
theorem scale_apply (x1 : FVec Ideal S512x1 .f32) (x2 : FVec Ideal S1x512 .f32)
    (h1 : S512x1.ShapeCasts S512x1) (h2 : S1x512.ShapeCasts S1x512) (hc : S512x1.Broadcasts S512x512)
    (hr : S1x512.Broadcasts S512x512) (hu : S512x512.ShapeCasts S1x512x512) (hb : S1x512x512.Broadcasts S4x512x512)
    (p : Fin 4) (i j : Fin 512) :
    broadcastTo S4x512x512 (shapeCast S1x512x512 (mulf (broadcastTo S512x512 (shapeCast S512x1 x1 h1) hc)
        (broadcastTo S512x512 (shapeCast S1x512 x2 h2) hr)) hu) hb (ix3 p i j)
      = x1 (ix2 i (0 : Fin 1)) * x2 (ix2 (0 : Fin 1) j) := by
  rw [batchBroadcast_apply, shapeCast_ab_1ab_apply, mulf_apply, colBroadcast_apply, broadcastTo_1b_ab_apply,
    shapeCast_self, shapeCast_self]

/-! ## The body's stored value at an entry -/

/-- Entry (p, i, j) of what the kernel stores: the Gram entry of batch p of the block between rows i and j, times the
    column's entry i times the row's entry j. -/
theorem pay_apply (x0 : Vec Ideal S4x1x512x512 .f32) (x1 : Vec Ideal S512x1 .f32) (x2 : Vec Ideal S1x512 .f32)
    (p : Fin 4) (i j : Fin 512) :
    k1_pay1 (F := Ideal) x0 x1 x2 (ix3 p i j)
      = (∑ f : Fin 512, x0 (ix4 p (0 : Fin 1) i f) * x0 (ix4 p (0 : Fin 1) j f))
          * (x1 (ix2 i (0 : Fin 1)) * x2 (ix2 (0 : Fin 1) j)) := by
  unfold k1_pay1
  refine (mulf_apply _ _ _).trans ?_
  refine congrArg₂ (· * ·) ?_ ?_
  · refine (selfProduct_apply _ p i j).trans (Finset.sum_congr rfl fun f _ => ?_)
    refine congrArg₂ (· * ·) ?_ ?_
    · exact dropPlane_apply x0 _ p i f
    · exact dropPlane_apply x0 _ p j f
  · exact scale_apply x1 x2 _ _ _ _ _ _ p i j

end Cert.KernelIdeal.GramValue

end
-- ==== Proof.GramRegion.lean ====
/-
  From the Gram kernel's blocks to the array it leaves.

  The kernel runs at sixteen points.  At point t it reads batches 4t … 4t + 3 of the input's first time-plane, the whole
  column and the whole row, and writes back a block of four [512, 512] matrices, which lands on batches 4t … 4t + 3 of
  the result.  If, when the kernel starts, the input array is X, the column holds inv i at (i, 0) and the row holds
  inv j at (0, j), then entry (p, i, j) of the block written at point t is
      g (4t + p) i j · (inv i · inv j),      g b i j = ∑ f, X b i f · X b j f,
  that is, the block is the restriction to batches 4t … 4t + 3 of ONE function of the result's index.  Batch b lies in
  the block of point b / 4, so the sixteen blocks cover the result, which therefore ends as that function everywhere.
-/
import Idealize.ShloMosaic.Lib.ValueIdx
import Idealize.ShloMosaic.Lib.Pipeline.Value
import proofs.«144684_j57664230916911_2_alg».proof.Proof.Gen.KernelIdeal.Frame
import proofs.«144684_j57664230916911_2_alg».proof.Proof.Spec
import proofs.«144684_j57664230916911_2_alg».proof.Proof.GramBody

noncomputable section

namespace Cert.KernelIdeal.GramValue

open Idealize.ShloMosaic Idealize.ShloMosaic.TcCoe Idealize.ShloMosaic.ValueIdx Idealize.SL.Sem
open Idealize.ShloMosaic.Pipeline (Dat)
open Cert.KernelIdeal Cert.KernelIdeal.Gen

/-- The scaled Gram array: entry (b, i, j) is g b i j · (inv i · inv j). -/
def scaledGram (X : Cert.Spec.SX.Idx → EReal) (inv : Fin 512 → EReal) : S64x512x512.Idx → EReal :=
  fun o => Cert.Spec.gram X (o 0) (o 1) (o 2) * (inv (o 1) * inv (o 2))

theorem scaledGram_apply (X : Cert.Spec.SX.Idx → EReal) (inv : Fin 512 → EReal) (b : Fin 64) (i j : Fin 512) :
    scaledGram X inv (ix3 b i j) = Cert.Spec.gram X b i j * (inv i * inv j) := rfl

/-! ## Where the blocks sit -/

theorem zeros2 : (![0, 0] : Fin 2 → Nat) = fun _ => 0 := funext fun a => by fin_cases a <;> rfl
theorem zeros3 : (![0, 0, 0] : Fin 3 → Nat) = fun _ => 0 := funext fun a => by fin_cases a <;> rfl
theorem zeros4 : (![0, 0, 0, 0] : Fin 4 → Nat) = fun _ => 0 := funext fun a => by fin_cases a <;> rfl

/-- At point t the input block and the output block sit at block index t along the batches and 0 elsewhere; the column
    and the row are whole, at block index 0. -/
theorem block_indices : ∀ t : Fin cfg1.N,
    win1_0.index t (0 : Fin 4) = t.val ∧ win1_0.index t (1 : Fin 4) = 0 ∧ win1_0.index t (2 : Fin 4) = 0
      ∧ win1_0.index t (3 : Fin 4) = 0
      ∧ win1_1.index t (0 : Fin 2) = 0 ∧ win1_1.index t (1 : Fin 2) = 0
      ∧ win1_2.index t (0 : Fin 2) = 0 ∧ win1_2.index t (1 : Fin 2) = 0
      ∧ win1_3.index t (0 : Fin 3) = t.val ∧ win1_3.index t (1 : Fin 3) = 0 ∧ win1_3.index t (2 : Fin 3) = 0 :=
  (by decide +kernel : ∀ t : Fin grid1.N, _)

theorem point_lt (t : Fin cfg1.N) : t.val < 16 := lt_of_lt_of_eq t.isLt N_1

/-- The batch of entry p of the block at point t: 4t + p. -/
def batchOf (t : Fin cfg1.N) (p : Fin 4) : Fin 64 :=
  ⟨4 * t.val + p.val, by have := point_lt t; have := p.isLt; omega⟩

section Blocks

variable (V : (c : Dev nD) → (b : Ref sig .tc) → Buf (Elt Ideal) ((c : Thread nD τ).loc b)) (c : Dev nD)

/-- The input block at point t: entry (p, 0, i, f) is the input at (4t + p, 0, i, f). -/
theorem inputBlock_apply (t : Fin cfg1.N) (p : Fin 4) (i f : Fin 512) :
    (iblk1 V c 0 t : Vec Ideal S4x1x512x512 .f32) (ix4 p (0 : Fin 1) i f)
      = (V c main_arg0 : S64x2x512x512.Idx → EReal) (ix4 (batchOf t p) (0 : Fin 2) i f) := by
  obtain ⟨e0, e1, e2, e3, -⟩ := block_indices t
  unfold iblk1
  rw [View.read_apply]
  show V c main_arg0 _ = V c main_arg0 _
  refine congrArg (V c main_arg0) (funext fun a => Fin.ext ?_)
  match a with
  | ⟨0, _⟩ => show win1_0.index t (0 : Fin 4) * 4 + 1 * p.val = 4 * t.val + p.val; omega
  | ⟨1, _⟩ => show win1_0.index t (1 : Fin 4) * 1 + 1 * 0 = 0; omega
  | ⟨2, _⟩ => show win1_0.index t (2 : Fin 4) * 512 + 1 * i.val = i.val; omega
  | ⟨3, _⟩ => show win1_0.index t (3 : Fin 4) * 512 + 1 * f.val = f.val; omega

/-- The column's block at any point is the whole column. -/
theorem columnBlock_apply (t : Fin cfg1.N) (i : Fin 512) :
    (iblk1 V c 1 t : Vec Ideal S512x1 .f32) (ix2 i (0 : Fin 1))
      = (V c main_v1 : S512x1.Idx → EReal) (ix2 i (0 : Fin 1)) := by
  obtain ⟨-, -, -, -, e0, e1, -⟩ := block_indices t
  unfold iblk1
  rw [View.read_apply]
  show V c main_v1 _ = V c main_v1 _
  refine congrArg (V c main_v1) (funext fun a => Fin.ext ?_)
  match a with
  | ⟨0, _⟩ => show win1_1.index t (0 : Fin 2) * 512 + 1 * i.val = i.val; omega
  | ⟨1, _⟩ => show win1_1.index t (1 : Fin 2) * 1 + 1 * 0 = 0; omega

/-- The row's block at any point is the whole row. -/
theorem rowBlock_apply (t : Fin cfg1.N) (j : Fin 512) :
    (iblk1 V c 2 t : Vec Ideal S1x512 .f32) (ix2 (0 : Fin 1) j)
      = (V c main_v0 : S1x512.Idx → EReal) (ix2 (0 : Fin 1) j) := by
  obtain ⟨-, -, -, -, -, -, e0, e1, -⟩ := block_indices t
  unfold iblk1
  rw [View.read_apply]
  show V c main_v0 _ = V c main_v0 _
  refine congrArg (V c main_v0) (funext fun a => Fin.ext ?_)
  match a with
  | ⟨0, _⟩ => show win1_2.index t (0 : Fin 2) * 1 + 1 * 0 = 0; omega
  | ⟨1, _⟩ => show win1_2.index t (1 : Fin 2) * 512 + 1 * j.val = j.val; omega

/-- An array of the result's shape read through the output block at point t: entry (p, i, j) is the array at
    (4t + p, i, j). -/
theorem outputBlock_apply (G : S64x512x512.Idx → EReal) (t : Fin cfg1.N) (p : Fin 4) (i j : Fin 512) :
    (((cfg1.win 3).blk t).view.read (Elt Ideal) G : Vec Ideal S4x512x512 .f32) (ix3 p i j)
      = G (ix3 (batchOf t p) i j) := by
  obtain ⟨-, -, -, -, -, -, -, -, e0, e1, e2⟩ := block_indices t
  rw [View.read_apply]
  show G _ = G _
  refine congrArg G (funext fun a => Fin.ext ?_)
  match a with
  | ⟨0, _⟩ => show win1_3.index t (0 : Fin 3) * 4 + 1 * p.val = 4 * t.val + p.val; omega
  | ⟨1, _⟩ => show win1_3.index t (1 : Fin 3) * 512 + 1 * i.val = i.val; omega
  | ⟨2, _⟩ => show win1_3.index t (2 : Fin 3) * 512 + 1 * j.val = j.val; omega

variable (X : Cert.Spec.SX.Idx → EReal) (inv : Fin 512 → EReal)
  (hx : (V c main_arg0 : S64x2x512x512.Idx → EReal) = X)
  (hcol : ∀ i : Fin 512, (V c main_v1 : S512x1.Idx → EReal) (ix2 i (0 : Fin 1)) = inv i)
  (hrow : ∀ j : Fin 512, (V c main_v0 : S1x512.Idx → EReal) (ix2 (0 : Fin 1) j) = inv j)

include hx hcol hrow in
/-- Entry (p, i, j) of what the body computes at point t is the scaled Gram array at (4t + p, i, j). -/
theorem body_entry (t : Fin cfg1.N) (p : Fin 4) (i j : Fin 512) :
    k1_pay1 (F := Ideal) (iblk1 V c 0 t) (iblk1 V c 1 t) (iblk1 V c 2 t) (ix3 p i j)
      = scaledGram X inv (ix3 (batchOf t p) i j) := by
  refine (pay_apply (iblk1 V c 0 t) (iblk1 V c 1 t) (iblk1 V c 2 t) p i j).trans ?_
  rw [scaledGram_apply]
  refine congrArg₂ (· * ·) (Finset.sum_congr rfl fun f _ => ?_) (congrArg₂ (· * ·) ?_ ?_)
  · refine congrArg₂ (· * ·) ?_ ?_
    · exact (inputBlock_apply V c t p i f).trans (congrFun hx _)
    · exact (inputBlock_apply V c t p j f).trans (congrFun hx _)
  · exact (columnBlock_apply V c t i).trans (hcol i)
  · exact (rowBlock_apply V c t j).trans (hrow j)

include hx hcol hrow in
/-- What point t writes back is the scaled Gram array read through the point's output block. -/
theorem flushed_eq (t : Fin cfg1.N) :
    (dat1 (F := Ideal) V c).flushed 3 t = ((cfg1.win 3).blk t).view.read (Elt Ideal) (scaledGram X inv) := by
  show (cfg1.win 3).cut (grid1.coords t) ((dat1 V c).after 3 t) = _
  rw [after1_3]
  unfold out1_3
  rw [View.canon_unit_zero zeros3]
  simp only [View.ld_unit_zero (S := S4x1x512x512) zeros4, View.ld_unit_zero (S := S512x1) zeros2,
    View.ld_unit_zero (S := S1x512) zeros2]
  funext y
  obtain ⟨p, i, j, rfl⟩ : ∃ (p : Fin 4) (i j : Fin 512), (y : S4x512x512.Idx) = ix3 p i j :=
    ⟨y 0, y 1, y 2, eq_ix3 (y : S4x512x512.Idx)⟩
  show k1_pay1 (F := Ideal) (iblk1 V c 0 t) (iblk1 V c 1 t) (iblk1 V c 2 t) (ix3 p i j) = _
  exact (body_entry V c X inv hx hcol hrow t p i j).trans (outputBlock_apply (scaledGram X inv) t p i j).symm

/-! ## The sixteen blocks cover the result -/

/-- An index of the result is in point t's block iff its batch is one of 4t … 4t + 3. -/
theorem mem_block (t : Fin cfg1.N) (o : S64x512x512.Idx) :
    o ∈ ((cfg1.win 3).blk t).view.set ↔ ∀ a : Fin 3,
      win1_3.index t a * S4x512x512.size a ≤ (o a).val ∧ (o a).val < win1_3.index t a * S4x512x512.size a + S4x512x512.size a := by
  show o ∈ ((View.whole main_v2).slice (win1_3.rect t)).set ↔ _
  rw [View.set_slice_whole, Rect.mem_set_unit]
  exact Iff.rfl

/-- Batch b lies in the block of point b / 4. -/
theorem covered (o : S64x512x512.Idx) :
    ∃ t : Fin cfg1.N, (cfg1.win 3).flush t = true ∧ o ∈ ((cfg1.win 3).blk t).view.set := by
  have h0 : (o 0).val < 64 := (o 0).isLt
  have h1 : (o 1).val < 512 := (o 1).isLt
  have h2 : (o 2).val < 512 := (o 2).isLt
  have hN : grid1.N = 16 := N_1
  let t : Fin cfg1.N := ⟨(o 0).val / 4, by show (o 0).val / 4 < grid1.N; omega⟩
  obtain ⟨-, -, -, -, -, -, -, -, e0, e1, e2⟩ := block_indices t
  have et : t.val = (o 0).val / 4 := rfl
  refine ⟨t, flush1_3 t, ?_⟩
  rw [mem_block]
  intro a
  match a with
  | ⟨0, _⟩ => show win1_3.index t (0 : Fin 3) * 4 ≤ (o 0).val ∧ (o 0).val < win1_3.index t (0 : Fin 3) * 4 + 4; omega
  | ⟨1, _⟩ => show win1_3.index t (1 : Fin 3) * 512 ≤ (o 1).val ∧ (o 1).val < win1_3.index t (1 : Fin 3) * 512 + 512; omega
  | ⟨2, _⟩ => show win1_3.index t (2 : Fin 3) * 512 ≤ (o 2).val ∧ (o 2).val < win1_3.index t (2 : Fin 3) * 512 + 512; omega

include hx hcol hrow in
/-- The result array after the kernel's last point is the scaled Gram array. -/
theorem gram_final_scaled : (dat1 (F := Ideal) V c).arrAt 3 cfg1.N = scaledGram X inv :=
  (dat1 (F := Ideal) V c).arrAt_eq_of_cover 3 (scaledGram X inv)
    (fun t _ => flushed_eq V c X inv hx hcol hrow t) covered

end Blocks

/-- The result array after the kernel's last point: if the kernel finds the input array X, the column inv and the row
    inv, entry (b, i, j) ends as g b i j · (inv i · inv j). -/
theorem gram_final (V : (c : Dev nD) → (b : Ref sig .tc) → Buf (Elt Ideal) ((c : Thread nD τ).loc b)) (c : Dev nD)
    (X : Cert.Spec.SX.Idx → EReal) (inv : Fin 512 → EReal)
    (hx : (V c main_arg0 : S64x2x512x512.Idx → EReal) = X)
    (hcol : ∀ i : Fin 512, (V c main_v1 : S512x1.Idx → EReal) (ix2 i (0 : Fin 1)) = inv i)
    (hrow : ∀ j : Fin 512, (V c main_v0 : S1x512.Idx → EReal) (ix2 (0 : Fin 1) j) = inv j) :
    (dat1 (F := Ideal) V c).arrAt 3 cfg1.N
      = fun o => Cert.Spec.gram X (o 0) (o 1) (o 2) * (inv (o 1) * inv (o 2)) :=
  gram_final_scaled V c X inv hx hcol hrow

end Cert.KernelIdeal.GramValue

end
-- ==== Proof.KernelRun.lean ====
/-
  The kernel program's run with its output named, and the wiring between its two regions.

  The program is two pipelined regions with one host operation between them.  Region 0 leaves the row of vertex norms
  (a [1, 512] array); the host operation transposes it into a column ([512, 1]); region 1 reads the input, the column
  and the row and leaves the result.  Here: the run of the whole program ends with the result buffer at what region 1's
  write-backs leave and the input as launched; region 1 enters with the input as launched, the row as region 0 left it,
  and the column equal to that row entry by entry.
-/
import proofs.«144684_j57664230916911_2_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The wiring -/

/-- Region 0 enters with the input as launched. -/
theorem entry0_arg (c : Dev nD) : V0 m ρ c main_arg0 = m ((c : Thread nD τ).loc main_arg0) := rfl

/-- The result buffer ends at what region 1's write-backs leave in its output array. -/
theorem out_eq (c : Dev nD) : W3 m ρ c (Proc.devRef .tc main_v2) = (dat1 (V2 m ρ) c).arrAt 3 cfg1.N :=
  W3_arr m ρ c 3

/-- The host operation between the regions writes only the column. -/
theorem hostOps1_not_writes (b : Ref sig .tc) (hb : b ≠ main_v1) :
    ∀ op ∈ (hostOps1 : List (HloOp τ sig (Elt F))), (Proc.devRef .tc b : DevRef τ sig) ∉ op.writes :=
  List.forall_iff_forall_mem.mp (by
    simp only [hostOps1, List.Forall, StableHlo.unary_writes, Finset.mem_singleton]
    exact StableHlo.devRef_ne_of_ne hb)

/-- Region 1 enters with the input as launched: neither region 0 nor the host operation writes it. -/
theorem entry1_arg (c : Dev nD) : V2 m ρ c main_arg0 = m ((c : Thread nD τ).loc main_arg0) :=
  calc V2 m ρ c main_arg0
    _ = W1 m ρ c (Proc.devRef .tc main_arg0) :=
        StableHlo.after_of_forall_not_mem (b := Proc.devRef .tc main_arg0) _ _ (hostOps1_not_writes main_arg0 (by decide))
    _ = W0 m ρ c (Proc.devRef .tc main_arg0) :=
        (W1_arr m ρ c 0).trans (((dat0 (V0 m ρ) c).arrAt_in 0 rfl _).trans (A_eq0 (V0 m ρ) c 0))
    _ = m ((c : Thread nD τ).loc main_arg0) := rfl

/-- Region 1 enters with the row of norms as region 0's write-backs left it. -/
theorem entry1_row (c : Dev nD) : V2 m ρ c main_v0 = (dat0 (V0 m ρ) c).arrAt 1 cfg0.N :=
  (StableHlo.after_of_forall_not_mem (b := Proc.devRef .tc main_v0) _ _ (hostOps1_not_writes main_v0 (by decide))).trans
    (W1_arr m ρ c 1)

/-- Region 1's column operand is the transpose of region 0's row: entry (i, 0) of the column is entry (0, i) of the row. -/
theorem entry1_col (c : Dev nD) (i : Fin 512) :
    (V2 m ρ c main_v1 : S512x1.Idx → Elt F .f32) (ValueIdx.ix2 i (0 : Fin 1))
      = ((dat0 (V0 m ρ) c).arrAt 1 cfg0.N : S1x512.Idx → Elt F .f32) (ValueIdx.ix2 (0 : Fin 1) i) := by
  have e : (V2 m ρ c main_v1 : S512x1.Idx → Elt F .f32)
      = transpose S512x1 [1, 0] (W1 m ρ c (Proc.devRef .tc main_v0) : S1x512.Idx → Elt F .f32) transposes_S1x512_S512x1_1_0 := by
    show StableHlo.after hostOps1 (W1 m ρ c) (Proc.devRef .tc main_v1) = _
    after_results
  rw [e, transpose_apply [1, 0] _ transposes_S1x512_S512x1_1_0 (ValueIdx.ix2 i (0 : Fin 1)) (ValueIdx.ix2 (0 : Fin 1) i)
    (fun b => match b with | ⟨0, _⟩ => rfl | ⟨1, _⟩ => rfl)]
  exact congrFun (W1_arr m ρ c 1) _

/-! ## The run -/

set_option backward.isDefEq.respectTransparency.types false in
/-- At the compiled mesh, from any memory with zero counters, every weakly fair execution of the program on the
    TensorCores terminates, nothing faulting, and every final state has the result buffer at the last boundary's
    contents and the input as launched: the launch over the program's three segments (region, host operation, region),
    the last thread state read against the final state. -/
theorem run : θ_run defs (onTc (τ := τ) (main (F := F))) ⟨m, fun _ => 0, ρ⟩ (fun r => ∀ c : Dev nD,
      r.2.mem ((c.tc : Thread nD τ).loc main_v2) = W3 m ρ c (Proc.devRef .tc main_v2) ∧
      r.2.mem ((c.tc : Thread nD τ).loc main_arg0) = m ((c.tc : Thread nD τ).loc main_arg0)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c =>
      ⟨h c _ (mem_uc main_v2 (by decide)),
        (h c _ (mem_uc main_arg0 (by decide))).trans (W3_main_arg0 m ρ c)⟩)

end Cert.KernelIdeal.RunValue

end
-- ==== Proof.lean ====
/-
  The certificate's five claims.

  Write X b v f for the input's first time-plane x[b, 0, v, f], s v = ∑ b, ∑ f, X b v f ² for the squared norm of vertex v
  and g b i j = ∑ f, X b i f · X b j f for the Gram entry.

  The kernel has two grid regions and a transpose between them.  The first region adds each vertex's squares up in eight
  batch steps and ends by taking the reciprocal square root: its [1, 512] result is v ↦ rsqrt (s v).  The transpose gives
  the same numbers as a [512, 1] column.  The second region multiplies each Gram entry (a contraction over the features,
  into a zero accumulator; the change of float format before it is the identity on the extended reals) by the column's
  entry at i and the row's entry at j: the result is  g b i j · (rsqrt (s i) · rsqrt (s j)).
  The reference computes  g b i j / (√(s i) · √(s j)).
  The precondition says every vertex norm √(s v) is positive, and then the two are one array: rsqrt a is the inverse of
  √a, the inverse of a product is the product of the inverses, and a quotient by a nonzero divisor is the product with
  its inverse.  No entry needs to be finite for that.

  The three frames: the two kernels' are the generated frame certificates, the reference's is its generated run with the
  result dropped.  The idealization rewrote nothing, so there is nothing to preserve.
-/
import proofs.«144684_j57664230916911_2_alg».proof.Defs
import proofs.«144684_j57664230916911_2_alg».proof.Proof.Gen.Kernel
import proofs.«144684_j57664230916911_2_alg».proof.Proof.Gen.Kernel.Skeleton
import proofs.«144684_j57664230916911_2_alg».proof.Proof.Gen.Kernel.Launch
import proofs.«144684_j57664230916911_2_alg».proof.Proof.Gen.Kernel.Points
import proofs.«144684_j57664230916911_2_alg».proof.Proof.Gen.Kernel.Frame
import proofs.«144684_j57664230916911_2_alg».proof.Proof.Gen.KernelIdeal
import proofs.«144684_j57664230916911_2_alg».proof.Proof.Gen.KernelIdeal.Skeleton
import proofs.«144684_j57664230916911_2_alg».proof.Proof.Gen.KernelIdeal.Launch
import proofs.«144684_j57664230916911_2_alg».proof.Proof.Gen.KernelIdeal.Points
import proofs.«144684_j57664230916911_2_alg».proof.Proof.Gen.KernelIdeal.Frame
import proofs.«144684_j57664230916911_2_alg».proof.Proof.Gen.ReferenceIdeal
import proofs.«144684_j57664230916911_2_alg».proof.Proof.Gen.ReferenceIdeal.Run
import proofs.«144684_j57664230916911_2_alg».proof.Proof.Gen.ReferenceIdeal.Read
import proofs.«144684_j57664230916911_2_alg».proof.Proof.Gen.Pre_finite_inputs
import proofs.«144684_j57664230916911_2_alg».proof.Proof.Spec
import proofs.«144684_j57664230916911_2_alg».proof.Proof.PreNorm
import proofs.«144684_j57664230916911_2_alg».proof.Proof.RefValue
import proofs.«144684_j57664230916911_2_alg».proof.Proof.NormRegion
import proofs.«144684_j57664230916911_2_alg».proof.Proof.GramRegion
import proofs.«144684_j57664230916911_2_alg».proof.Proof.KernelRun
import Idealize.ShloMosaic.Adequacy
import Idealize.ShloMosaic.Init

noncomputable section

namespace Cert.Proof

open Idealize.ShloMosaic Idealize.ShloMosaic.TcCoe Idealize.ShloMosaic.ValueIdx Idealize.SL.Sem

/-! ## The kernel's result array -/

section KernelValue

open Cert.KernelIdeal Cert.KernelIdeal.Gen

variable (m : (ℓ : Loc nD τ sig) → Buf (Elt Ideal) ℓ) (ρ : Dev nD → PrngReg)

/-- The kernel's result: each Gram entry times the reciprocal norms of its two vertices. -/
theorem kernel_out (c : Dev nD) :
    W3 m ρ c (Proc.devRef .tc main_v2) = Cert.Spec.outRsqrt (m ((c : Thread nD τ).loc main_arg0)) := by
  rw [Cert.KernelIdeal.RunValue.out_eq m ρ c]
  refine Cert.KernelIdeal.GramValue.gram_final (V2 m ρ) c (m ((c : Thread nD τ).loc main_arg0))
    (fun v => Ideal.rsqrt (Cert.Spec.sqnorm (m ((c : Thread nD τ).loc main_arg0)) v))
    (Cert.KernelIdeal.RunValue.entry1_arg m ρ c) (fun i => ?_) (fun j => ?_)
  · rw [Cert.KernelIdeal.RunValue.entry1_col m ρ c i, Cert.KernelIdeal.NormValue.norm_final (V0 m ρ) c]
    rfl
  · rw [Cert.KernelIdeal.RunValue.entry1_row m ρ c, Cert.KernelIdeal.NormValue.norm_final (V0 m ρ) c]
    rfl

end KernelValue

/-! ## The claims -/

theorem frame_k [Cert.Pre_finite_inputs.Facts] : Cert.frame_Kernel := fun m ρ _ => Cert.Kernel.Gen.frame m ρ

theorem frame_ki [Cert.Pre_finite_inputs.Facts] : Cert.frame_KernelIdeal := fun m ρ _ => Cert.KernelIdeal.Gen.frame m ρ

theorem frame_ri [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- Under the precondition the two programs end with one result array: the kernel's products with reciprocal norms are
    the reference's quotients by the norms, because every norm is positive. -/
theorem algebraic [Cert.Pre_finite_inputs.Facts] : Cert.algebraic_KernelIdeal_ReferenceIdeal := by
  intro m ρ m' ρ' hpre hagree
  refine ⟨fun c => Cert.Spec.outDiv (m ((c.tc : Thread Cert.KernelIdeal.nD Cert.KernelIdeal.τ).loc Cert.KernelIdeal.main_arg0)), ?_, ?_⟩
  · refine (θ_run Cert.KernelIdeal.defs _ _).mono (fun _ h c => ⟨(h c).1.trans ?_, (h c).2⟩)
      (Cert.KernelIdeal.RunValue.run (F := Ideal) m ρ)
    rw [kernel_out m ρ c]
    exact Cert.Spec.outRsqrt_eq_outDiv _ (Cert.PreNorm.norm_pos _ (hpre c))
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v14_eq, Cert.RefValue.ref_eq, hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
